-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x2 .f32) (main_arg12 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2 .f32 := Host.absf main_arg11
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x2 .f32) (main_arg12 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x2 .f32) (main_arg12 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128 : Shape := ⟨2, ![1, 128]⟩
abbrev S5000x128 : Shape := ⟨2, ![5000, 128]⟩
abbrev S800000x128 : Shape := ⟨2, ![800000, 128]⟩
abbrev S5000x1 : Shape := ⟨2, ![5000, 1]⟩
abbrev S1 : Shape := ⟨1, ![1]⟩
abbrev S50000x2 : Shape := ⟨2, ![50000, 2]⟩
abbrev S64x2 : Shape := ⟨2, ![64, 2]⟩
abbrev S64 : Shape := ⟨1, ![64]⟩
abbrev S64x1 : Shape := ⟨2, ![64, 1]⟩

abbrev nBuf : Space → Nat
  | .hbm => 187
  | .vmem => 57
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x2, .f32⟩
  | 12 => ⟨S2, .f32⟩
  | 13 => ⟨S1x800000, .i32⟩
  | 14 => ⟨S800000, .i32⟩
  | 15 => ⟨S1x800000, .i32⟩
  | 16 => ⟨S800000, .i32⟩
  | 17 => ⟨S_, .f32⟩
  | 18 => ⟨S50000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S_, .f32⟩
  | 28 => ⟨S800000, .f32⟩
  | 29 => ⟨S50000, .f32⟩
  | 30 => ⟨S_, .f32⟩
  | 31 => ⟨S50000, .f32⟩
  | 32 => ⟨S50000, .f32⟩
  | 33 => ⟨S50000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S50000, .f32⟩
  | 54 => ⟨S50000x1, .f32⟩
  | 55 => ⟨S_, .f32⟩
  | 56 => ⟨S128, .f32⟩
  | 57 => ⟨S1x128, .f32⟩
  | 58 => ⟨S50000x128, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S800000x1, .f32⟩
  | 69 => ⟨S800000x128, .f32⟩
  | 70 => ⟨S800000x128, .f32⟩
  | 71 => ⟨S_, .f32⟩
  | 72 => ⟨S50000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S50000x128, .f32⟩
  | 82 => ⟨S1x128, .f32⟩
  | 83 => ⟨S50000x128, .f32⟩
  | 84 => ⟨S_, .f32⟩
  | 85 => ⟨S128, .f32⟩
  | 86 => ⟨S1x128, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S800000x1, .f32⟩
  | 98 => ⟨S800000x128, .f32⟩
  | 99 => ⟨S800000x128, .f32⟩
  | 100 => ⟨S_, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S50000x128, .f32⟩
  | 111 => ⟨S1x128, .f32⟩
  | 112 => ⟨S50000x128, .f32⟩
  | 113 => ⟨S_, .f32⟩
  | 114 => ⟨S128, .f32⟩
  | 115 => ⟨S1x128, .f32⟩
  | 116 => ⟨S50000x128, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x128, .f32⟩
  | 126 => ⟨S800000x1, .f32⟩
  | 127 => ⟨S800000x128, .f32⟩
  | _ => ⟨S50000x128, .f32⟩

abbrev hbmTy0_1 (i : Nat) : BufTy := match i % 128 with
  | 0 => ⟨S800000x128, .f32⟩
  | 1 => ⟨S_, .f32⟩
  | 2 => ⟨S50000x128, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S50000x128, .f32⟩
  | 12 => ⟨S1x128, .f32⟩
  | 13 => ⟨S50000x128, .f32⟩
  | 14 => ⟨S1x128, .f32⟩
  | 15 => ⟨S50000x128, .f32⟩
  | 16 => ⟨S_, .f32⟩
  | 17 => ⟨S128x128, .f32⟩
  | 18 => ⟨S_, .i32⟩
  | 19 => ⟨S1, .i32⟩
  | 20 => ⟨S128x128, .f32⟩
  | 21 => ⟨S_, .f32⟩
  | 22 => ⟨S128, .f32⟩
  | 23 => ⟨S_, .i32⟩
  | 24 => ⟨S1, .i32⟩
  | 25 => ⟨S128, .f32⟩
  | 26 => ⟨S1x128, .f32⟩
  | 27 => ⟨S50000x128, .f32⟩
  | 28 => ⟨S50000x2, .f32⟩
  | 29 => ⟨S_, .f32⟩
  | 30 => ⟨S64x2, .f32⟩
  | 31 => ⟨S50000x1, .i32⟩
  | 32 => ⟨S64x2, .f32⟩
  | 33 => ⟨S_, .f32⟩
  | 34 => ⟨S50000, .f32⟩
  | 35 => ⟨S_, .f32⟩
  | 36 => ⟨S64, .f32⟩
  | 37 => ⟨S50000x1, .i32⟩
  | 38 => ⟨S64, .f32⟩
  | 39 => ⟨S_, .f32⟩
  | 40 => ⟨S64, .f32⟩
  | 41 => ⟨S64, .f32⟩
  | 42 => ⟨S64x1, .f32⟩
  | 43 => ⟨S64x2, .f32⟩
  | 44 => ⟨S64x2, .f32⟩
  | 45 => ⟨S_, .f32⟩
  | 46 => ⟨S64, .f32⟩
  | 47 => ⟨S_, .f32⟩
  | 48 => ⟨S64, .f32⟩
  | 49 => ⟨S64, .f32⟩
  | 50 => ⟨S64x1, .f32⟩
  | 51 => ⟨S64x2, .f32⟩
  | 52 => ⟨S64x2, .f32⟩
  | 53 => ⟨S64x2, .f32⟩
  | 54 => ⟨S_, .f32⟩
  | 55 => ⟨S64, .f32⟩
  | 56 => ⟨S64x1, .f32⟩
  | 57 => ⟨S64x2, .f32⟩
  | 58 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x1, .f32⟩
  | .local _ .vmem, ⟨41, _⟩ => ⟨S5000x1, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S128x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S128x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_c_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_13 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_14 : Ref sig .tc := ⟨.hbm, 88, rfl⟩
abbrev main_v59 : Ref sig .tc := ⟨.hbm, 89, rfl⟩
abbrev main_v60 : Ref sig .tc := ⟨.hbm, 90, rfl⟩
abbrev main_c_15 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_c_17 : Ref sig .tc := ⟨.hbm, 102, rfl⟩
abbrev main_v70 : Ref sig .tc := ⟨.hbm, 103, rfl⟩
abbrev main_v71 : Ref sig .tc := ⟨.hbm, 104, rfl⟩
abbrev main_c_18 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_19 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_20 : Ref sig .tc := ⟨.hbm, 117, rfl⟩
abbrev main_v82 : Ref sig .tc := ⟨.hbm, 118, rfl⟩
abbrev main_v83 : Ref sig .tc := ⟨.hbm, 119, rfl⟩
abbrev main_c_21 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_22 : Ref sig .tc := ⟨.hbm, 129, rfl⟩
abbrev main_v92 : Ref sig .tc := ⟨.hbm, 130, rfl⟩
abbrev main_c_23 : Ref sig .tc := ⟨.hbm, 131, rfl⟩
abbrev main_v93 : Ref sig .tc := ⟨.hbm, 132, rfl⟩
abbrev main_v94 : Ref sig .tc := ⟨.hbm, 133, rfl⟩
abbrev main_c_24 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_25 : Ref sig .tc := ⟨.hbm, 144, rfl⟩
abbrev main_v104 : Ref sig .tc := ⟨.hbm, 145, rfl⟩
abbrev main_c_26 : Ref sig .tc := ⟨.hbm, 146, rfl⟩
abbrev main_v105 : Ref sig .tc := ⟨.hbm, 147, rfl⟩
abbrev main_v106 : Ref sig .tc := ⟨.hbm, 148, rfl⟩
abbrev main_cst_27 : Ref sig .tc := ⟨.hbm, 149, rfl⟩
abbrev main_v107 : Ref sig .tc := ⟨.hbm, 150, rfl⟩
abbrev main_c_28 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_29 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_30 : Ref sig .tc := ⟨.hbm, 161, rfl⟩
abbrev main_v116 : Ref sig .tc := ⟨.hbm, 162, rfl⟩
abbrev main_cst_31 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_32 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_33 : Ref sig .tc := ⟨.hbm, 173, rfl⟩
abbrev main_v125 : Ref sig .tc := ⟨.hbm, 174, rfl⟩
abbrev main_cst_34 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_35 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg4_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg3_0 : Ref sig .tc := ⟨.vmem, 49, rfl⟩
abbrev cc6_stg3_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg3_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem4_0 : DmaSem sig := 43
abbrev cc5_sem4_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem3_0 : DmaSem sig := 49
abbrev cc6_sem3_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem3_0 : DmaSem sig := 55
abbrev cc7_sem3_1 : DmaSem sig := 56

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S128x128 : S_.BroadcastsInDim S128x128 (![] : Fin 0 → Fin S128x128.rank)
  bcast_S_S1 : S_.BroadcastsInDim S1 (![] : Fin 0 → Fin S1.rank)
  shapeCasts_S128x128_S128x128 : S128x128.ShapeCasts S128x128
  slices_S50000x128_S50000x2_0_0 : S50000x128.Slices ![0, 0] S50000x2
  bcast_S_S64x2 : S_.BroadcastsInDim S64x2 (![] : Fin 0 → Fin S64x2.rank)
  bcast_S_S64 : S_.BroadcastsInDim S64 (![] : Fin 0 → Fin S64.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  reducesTo_S64x2_S64_d1 : S64x2.ReducesTo [1] S64
  h_S_ : 0 < S_.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S128x128_S1_S128x2_01_n_1_0_wf : ScatterDims.WF S128x128 S1 S128x2 [0, 1] [] [1] 0
  scatter_S128_S1_S2_0_n_0_0_wf : ScatterDims.WF S128 S1 S2 [0] [] [0] 0
  scatter_S64x2_S50000x1_S50000x2_1_0_0_1_wf : ScatterDims.WF S64x2 S50000x1 S50000x2 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S128x128_S1_S128x2_01_n_1_0 : ScatterDims S128x128 S1 S128x2 where
  updateWindowDims := [0, 1]
  insertedWindowDims := []
  scatterDimsToOperandDims := [1]
  indexVectorDim := 0
  wf := scatter_S128x128_S1_S128x2_01_n_1_0_wf
def scatter_S128_S1_S2_0_n_0_0 : ScatterDims S128 S1 S2 where
  updateWindowDims := [0]
  insertedWindowDims := []
  scatterDimsToOperandDims := [0]
  indexVectorDim := 0
  wf := scatter_S128_S1_S2_0_n_0_0_wf
def scatter_S64x2_S50000x1_S50000x2_1_0_0_1 : ScatterDims S64x2 S50000x1 S50000x2 where
  updateWindowDims := [1]
  insertedWindowDims := [0]
  scatterDimsToOperandDims := [0]
  indexVectorDim := 1
  wf := scatter_S64x2_S50000x1_S50000x2_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v53) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v76) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v32) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v78) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v81) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v99) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v32) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v100) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v101) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v101) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v102) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v103) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v103) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v106) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v110) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v111) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x2 : Shape := ⟨2, ![50000, 2]⟩
abbrev S1x2 : Shape := ⟨2, ![1, 2]⟩
abbrev S64x2 : Shape := ⟨2, ![64, 2]⟩
abbrev S64 : Shape := ⟨1, ![64]⟩
abbrev S64x1 : Shape := ⟨2, ![64, 1]⟩

abbrev nBuf : Space → Nat
  | .hbm => 195
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x2, .f32⟩
  | 12 => ⟨S2, .f32⟩
  | 13 => ⟨S1x800000, .i32⟩
  | 14 => ⟨S800000, .i32⟩
  | 15 => ⟨S1x800000, .i32⟩
  | 16 => ⟨S800000, .i32⟩
  | 17 => ⟨S_, .f32⟩
  | 18 => ⟨S50000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S_, .f32⟩
  | 28 => ⟨S800000, .f32⟩
  | 29 => ⟨S50000, .f32⟩
  | 30 => ⟨S_, .f32⟩
  | 31 => ⟨S50000, .f32⟩
  | 32 => ⟨S50000, .f32⟩
  | 33 => ⟨S50000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S50000, .f32⟩
  | 54 => ⟨S50000x1, .f32⟩
  | 55 => ⟨S50000x128, .f32⟩
  | 56 => ⟨S_, .f32⟩
  | 57 => ⟨S50000x128, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x128, .f32⟩
  | 67 => ⟨S800000x1, .f32⟩
  | 68 => ⟨S800000x128, .f32⟩
  | 69 => ⟨S800000x128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S50000x128, .f32⟩
  | 79 => ⟨S50000x128, .f32⟩
  | 80 => ⟨S50000x128, .f32⟩
  | 81 => ⟨S50000x128, .f32⟩
  | 82 => ⟨S1x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S50000x128, .f32⟩
  | 89 => ⟨S_, .f32⟩
  | 90 => ⟨S50000x128, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S800000x1, .f32⟩
  | 101 => ⟨S800000x128, .f32⟩
  | 102 => ⟨S800000x128, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S50000x128, .f32⟩
  | 112 => ⟨S50000x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S_, .f32⟩
  | 123 => ⟨S50000x128, .f32⟩
  | 124 => ⟨S_, .i32⟩
  | 125 => ⟨S800000, .i32⟩
  | 126 => ⟨S800000, .i1⟩
  | 127 => ⟨S_, .i32⟩
  | _ => ⟨S50000x128, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S800000x128, .f32⟩
  | 5 => ⟨S800000x1, .f32⟩
  | 6 => ⟨S800000x128, .f32⟩
  | 7 => ⟨S800000x128, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S50000x128, .f32⟩
  | 17 => ⟨S50000x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S_, .f32⟩
  | 24 => ⟨S50000x128, .f32⟩
  | 25 => ⟨S50000x128, .f32⟩
  | 26 => ⟨S50000x128, .f32⟩
  | 27 => ⟨S1x128, .f32⟩
  | 28 => ⟨S50000x128, .f32⟩
  | 29 => ⟨S50000x128, .f32⟩
  | 30 => ⟨S_, .f32⟩
  | 31 => ⟨S50000x128, .f32⟩
  | 32 => ⟨S50000x128, .f32⟩
  | 33 => ⟨S50000x2, .f32⟩
  | 34 => ⟨S1x2, .f32⟩
  | 35 => ⟨S50000x2, .f32⟩
  | 36 => ⟨S50000x2, .f32⟩
  | 37 => ⟨S_, .f32⟩
  | 38 => ⟨S64x2, .f32⟩
  | 39 => ⟨S50000x1, .i32⟩
  | 40 => ⟨S64x2, .f32⟩
  | 41 => ⟨S_, .f32⟩
  | 42 => ⟨S50000, .f32⟩
  | 43 => ⟨S_, .f32⟩
  | 44 => ⟨S64, .f32⟩
  | 45 => ⟨S50000x1, .i32⟩
  | 46 => ⟨S64, .f32⟩
  | 47 => ⟨S_, .f32⟩
  | 48 => ⟨S64, .f32⟩
  | 49 => ⟨S64, .f32⟩
  | 50 => ⟨S64x1, .f32⟩
  | 51 => ⟨S64x2, .f32⟩
  | 52 => ⟨S64x2, .f32⟩
  | 53 => ⟨S_, .f32⟩
  | 54 => ⟨S64, .f32⟩
  | 55 => ⟨S_, .f32⟩
  | 56 => ⟨S64, .f32⟩
  | 57 => ⟨S64, .f32⟩
  | 58 => ⟨S64x1, .f32⟩
  | 59 => ⟨S64x2, .f32⟩
  | 60 => ⟨S64x2, .f32⟩
  | 61 => ⟨S64x2, .f32⟩
  | 62 => ⟨S_, .f32⟩
  | 63 => ⟨S64, .f32⟩
  | 64 => ⟨S64x1, .f32⟩
  | 65 => ⟨S64x2, .f32⟩
  | 66 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_10 : Ref sig .tc := ⟨.hbm, 70, rfl⟩
abbrev main_v45 : Ref sig .tc := ⟨.hbm, 71, rfl⟩
abbrev main_v46 : Ref sig .tc := ⟨.hbm, 72, rfl⟩
abbrev main_c_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call0_cst : Ref sig .tc := ⟨.hbm, 85, rfl⟩
abbrev main_call0_v0 : Ref sig .tc := ⟨.hbm, 86, rfl⟩
abbrev main_v58 : Ref sig .tc := ⟨.hbm, 87, rfl⟩
abbrev main_v59 : Ref sig .tc := ⟨.hbm, 88, rfl⟩
abbrev main_cst_12 : Ref sig .tc := ⟨.hbm, 89, rfl⟩
abbrev main_v60 : Ref sig .tc := ⟨.hbm, 90, rfl⟩
abbrev main_c_13 : Ref sig .tc := ⟨.hbm, 91, rfl⟩
abbrev main_v61 : Ref sig .tc := ⟨.hbm, 92, rfl⟩
abbrev main_v62 : Ref sig .tc := ⟨.hbm, 93, rfl⟩
abbrev main_c_14 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_call1_cst : Ref sig .tc := ⟨.hbm, 118, rfl⟩
abbrev main_call1_v0 : Ref sig .tc := ⟨.hbm, 119, rfl⟩
abbrev main_v84 : Ref sig .tc := ⟨.hbm, 120, rfl⟩
abbrev main_v85 : Ref sig .tc := ⟨.hbm, 121, rfl⟩
abbrev main_cst_17 : Ref sig .tc := ⟨.hbm, 122, rfl⟩
abbrev main_v86 : Ref sig .tc := ⟨.hbm, 123, rfl⟩
abbrev main_c_18 : Ref sig .tc := ⟨.hbm, 124, rfl⟩
abbrev main_v87 : Ref sig .tc := ⟨.hbm, 125, rfl⟩
abbrev main_v88 : Ref sig .tc := ⟨.hbm, 126, rfl⟩
abbrev main_c_19 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_c_20 : Ref sig .tc := ⟨.hbm, 136, rfl⟩
abbrev main_v97 : Ref sig .tc := ⟨.hbm, 137, rfl⟩
abbrev main_v98 : Ref sig .tc := ⟨.hbm, 138, rfl⟩
abbrev main_c_21 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_call2_cst : Ref sig .tc := ⟨.hbm, 151, rfl⟩
abbrev main_call2_v0 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_call3_cst : Ref sig .tc := ⟨.hbm, 158, rfl⟩
abbrev main_call3_v0 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_22 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_23 : Ref sig .tc := ⟨.hbm, 169, rfl⟩
abbrev main_v123 : Ref sig .tc := ⟨.hbm, 170, rfl⟩
abbrev main_cst_24 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_25 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_26 : Ref sig .tc := ⟨.hbm, 181, rfl⟩
abbrev main_v132 : Ref sig .tc := ⟨.hbm, 182, rfl⟩
abbrev main_cst_27 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_cst_28 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S800000x1_S800000x128_0_1 : S800000x1.BroadcastsInDim S800000x128 (![0, 1] : Fin 2 → Fin S800000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  bcast_S_S64x2 : S_.BroadcastsInDim S64x2 (![] : Fin 0 → Fin S64x2.rank)
  bcast_S_S64 : S_.BroadcastsInDim S64 (![] : Fin 0 → Fin S64.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  reducesTo_S64x2_S64_d1 : S64x2.ReducesTo [1] S64
  h_S_ : 0 < S_.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x2_S50000x2_1_0_0_1_n_n_wf : DotDims.WF S50000x128 S128x2 S50000x2 [1] [0] [0] [1] [] []
  scatter_S64x2_S50000x1_S50000x2_1_0_0_1_wf : ScatterDims.WF S64x2 S50000x1 S50000x2 [1] [0] [0] 1
  scatter_S64_S50000x1_S50000_n_0_0_1_wf : ScatterDims.WF S64 S50000x1 S50000 [] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def scatter_S64x2_S50000x1_S50000x2_1_0_0_1 : ScatterDims S64x2 S50000x1 S50000x2 where
  updateWindowDims := [1]
  insertedWindowDims := [0]
  scatterDimsToOperandDims := [0]
  indexVectorDim := 1
  wf := scatter_S64x2_S50000x1_S50000x2_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KernelRun.lean ====
import proofs.«113334_j17016660427423_1_alg».proof.Proof.Gen.KernelIdeal.Frame

/-!
# The idealized kernel's run, with every buffer of the final state named

The program is eight pipelined regions among nine stretches of host operations.  Its run is a fold of
buffer contents through the seventeen segments: a host stretch applies its operations to the contents it
finds, a region replaces its arrays by what its write-backs leave.  The last contents of that fold are
`Gen.W17`.  Here the run is stated once with the whole final memory read against `Gen.W17`; the value
of the result buffer is then a matter of computing that fold, segment by segment.
-/

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in the final state every
    unscoped buffer of every core holds the last contents of the fold through the segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

/-- The same run with the result buffer and the thirteen arguments read off: the result holds the fold's
    last contents at its buffer, every argument what it held at launch. -/
theorem run_result : θ_run defs (onTc (τ := τ) (main (F := F))) ⟨m, fun _ => 0, ρ⟩ (fun r => ∀ c : Dev nD,
      r.2.mem ((c.tc : Thread nD τ).loc main_v135) = W17 m ρ c (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun s h c =>
      ⟨h c _ (mem_uc main_v135 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c)⟩)
    (run_all m ρ)

end Cert.KernelIdeal.RunValue

end
-- ==== Proof.Keep.lean ====
import proofs.«113334_j17016660427423_1_alg».proof.Proof.Gen.KernelIdeal.Frame

/-!
# Buffers that a segment leaves alone

The program's buffers are numbered in the order in which the program writes them: the thirteen arguments
first, then each value of the host program and each region's result, in program order.  So a stretch of host
operations that writes the buffers numbered `lo` and up leaves every buffer numbered below `lo` as it found
it, and a region whose result is buffer `n` leaves every buffer numbered below `n` as it found it (its input
arrays are read, never written).  Chained from the launch these say: at every boundary of the fold an argument
still holds what it held at launch, and the values the first stretch computes once — the two index rows, the
edge weights, the self-loop weights — still hold what they held when the first region was entered.
-/

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## One stretch of host operations -/

/-- Host stretch 0 writes only buffers numbered 13 and up. -/
theorem host0 (W : Valuation τ sig (Elt F)) (b : Ref sig .tc) (hb : b.idx.val < 13) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- Host stretch 1 writes only buffers numbered 59 and up. -/
theorem host1 (W : Valuation τ sig (Elt F)) (b : Ref sig .tc) (hb : b.idx.val < 59) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- Host stretch 2 writes only buffers numbered 84 and up. -/
theorem host2 (W : Valuation τ sig (Elt F)) (b : Ref sig .tc) (hb : b.idx.val < 84) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- Host stretch 3 writes only buffers numbered 88 and up. -/
theorem host3 (W : Valuation τ sig (Elt F)) (b : Ref sig .tc) (hb : b.idx.val < 88) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- Host stretch 4 writes only buffers numbered 113 and up. -/
theorem host4 (W : Valuation τ sig (Elt F)) (b : Ref sig .tc) (hb : b.idx.val < 113) :
    StableHlo.after (hostOps4 (F := F)) W (Proc.devRef .tc b) = W (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- Host stretch 5 writes only buffers numbered 117 and up. -/
theorem host5 (W : Valuation τ sig (Elt F)) (b : Ref sig .tc) (hb : b.idx.val < 117) :
    StableHlo.after (hostOps5 (F := F)) W (Proc.devRef .tc b) = W (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- Host stretch 6 writes only buffers numbered 142 and up. -/
theorem host6 (W : Valuation τ sig (Elt F)) (b : Ref sig .tc) (hb : b.idx.val < 142) :
    StableHlo.after (hostOps6 (F := F)) W (Proc.devRef .tc b) = W (Proc.devRef .tc b) :=
  StableHlo.after_of_forall_not_mem (b := Proc.devRef .tc b) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- Host stretch 7 writes only buffers numbered 144 and up. -/
theorem host7 (W : Valuation τ sig (Elt F)) (b : Ref sig .tc) (hb : b.idx.val < 144) :
    StableHlo.after (hostOps7 (F := F)) W (Proc.devRef .tc b) = W (Proc.devRef .tc b) :=
  StableHlo.after_of_forall_not_mem (b := Proc.devRef .tc b) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-- Host stretch 8 writes only buffers numbered 156 and up. -/
theorem host8 (W : Valuation τ sig (Elt F)) (b : Ref sig .tc) (hb : b.idx.val < 156) :
    StableHlo.after (hostOps8 (F := F)) W (Proc.devRef .tc b) = W (Proc.devRef .tc b) :=
  StableHlo.after_of_forall_not_mem (b := Proc.devRef .tc b) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => absurd (e ▸ hb) (by decide))))

/-! ## One region -/

/-- Region 0 writes only its result, buffer 58. -/
theorem reg0 (c : Dev nD) (b : Ref sig .tc) (hb : b.idx.val < 58) :
    W2 m ρ c (Proc.devRef .tc b) = W1 m ρ c (Proc.devRef .tc b) := by
  by_cases h : ∃ w, Pipeline.arrRef spec0 w = b
  · obtain ⟨w, rfl⟩ := h
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact absurd (show (58 : ℕ) < 58 from hb) (by decide)
  · exact W2_of_ne m ρ c b (fun w e => h ⟨w, e⟩)

/-- Region 1 writes only its result, buffer 83. -/
theorem reg1 (c : Dev nD) (b : Ref sig .tc) (hb : b.idx.val < 83) :
    W4 m ρ c (Proc.devRef .tc b) = W3 m ρ c (Proc.devRef .tc b) := by
  by_cases h : ∃ w, Pipeline.arrRef spec1 w = b
  · obtain ⟨w, rfl⟩ := h
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact (W4_arr m ρ c 3).trans (((dat1 (V3 m ρ) c).arrAt_in 3 rfl _).trans (A_eq1 (V3 m ρ) c 3))
    | ⟨4, _⟩ => exact absurd (show (83 : ℕ) < 83 from hb) (by decide)
  · exact W4_of_ne m ρ c b (fun w e => h ⟨w, e⟩)

/-- Region 2 writes only its result, buffer 87. -/
theorem reg2 (c : Dev nD) (b : Ref sig .tc) (hb : b.idx.val < 87) :
    W6 m ρ c (Proc.devRef .tc b) = W5 m ρ c (Proc.devRef .tc b) := by
  by_cases h : ∃ w, Pipeline.arrRef spec2 w = b
  · obtain ⟨w, rfl⟩ := h
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact absurd (show (87 : ℕ) < 87 from hb) (by decide)
  · exact W6_of_ne m ρ c b (fun w e => h ⟨w, e⟩)

/-- Region 3 writes only its result, buffer 112. -/
theorem reg3 (c : Dev nD) (b : Ref sig .tc) (hb : b.idx.val < 112) :
    W8 m ρ c (Proc.devRef .tc b) = W7 m ρ c (Proc.devRef .tc b) := by
  by_cases h : ∃ w, Pipeline.arrRef spec3 w = b
  · obtain ⟨w, rfl⟩ := h
    match w with
    | ⟨0, _⟩ => exact (W8_arr m ρ c 0).trans (((dat3 (V7 m ρ) c).arrAt_in 0 rfl _).trans (A_eq3 (V7 m ρ) c 0))
    | ⟨1, _⟩ => exact (W8_arr m ρ c 1).trans (((dat3 (V7 m ρ) c).arrAt_in 1 rfl _).trans (A_eq3 (V7 m ρ) c 1))
    | ⟨2, _⟩ => exact (W8_arr m ρ c 2).trans (((dat3 (V7 m ρ) c).arrAt_in 2 rfl _).trans (A_eq3 (V7 m ρ) c 2))
    | ⟨3, _⟩ => exact (W8_arr m ρ c 3).trans (((dat3 (V7 m ρ) c).arrAt_in 3 rfl _).trans (A_eq3 (V7 m ρ) c 3))
    | ⟨4, _⟩ => exact absurd (show (112 : ℕ) < 112 from hb) (by decide)
  · exact W8_of_ne m ρ c b (fun w e => h ⟨w, e⟩)

/-- Region 4 writes only its result, buffer 116. -/
theorem reg4 (c : Dev nD) (b : Ref sig .tc) (hb : b.idx.val < 116) :
    W10 m ρ c (Proc.devRef .tc b) = W9 m ρ c (Proc.devRef .tc b) := by
  by_cases h : ∃ w, Pipeline.arrRef spec4 w = b
  · obtain ⟨w, rfl⟩ := h
    match w with
    | ⟨0, _⟩ => exact (W10_arr m ρ c 0).trans (((dat4 (V9 m ρ) c).arrAt_in 0 rfl _).trans (A_eq4 (V9 m ρ) c 0))
    | ⟨1, _⟩ => exact (W10_arr m ρ c 1).trans (((dat4 (V9 m ρ) c).arrAt_in 1 rfl _).trans (A_eq4 (V9 m ρ) c 1))
    | ⟨2, _⟩ => exact (W10_arr m ρ c 2).trans (((dat4 (V9 m ρ) c).arrAt_in 2 rfl _).trans (A_eq4 (V9 m ρ) c 2))
    | ⟨3, _⟩ => exact absurd (show (116 : ℕ) < 116 from hb) (by decide)
  · exact W10_of_ne m ρ c b (fun w e => h ⟨w, e⟩)

/-- Region 5 writes only its result, buffer 141. -/
theorem reg5 (c : Dev nD) (b : Ref sig .tc) (hb : b.idx.val < 141) :
    W12 m ρ c (Proc.devRef .tc b) = W11 m ρ c (Proc.devRef .tc b) := by
  by_cases h : ∃ w, Pipeline.arrRef spec5 w = b
  · obtain ⟨w, rfl⟩ := h
    match w with
    | ⟨0, _⟩ => exact (W12_arr m ρ c 0).trans (((dat5 (V11 m ρ) c).arrAt_in 0 rfl _).trans (A_eq5 (V11 m ρ) c 0))
    | ⟨1, _⟩ => exact (W12_arr m ρ c 1).trans (((dat5 (V11 m ρ) c).arrAt_in 1 rfl _).trans (A_eq5 (V11 m ρ) c 1))
    | ⟨2, _⟩ => exact (W12_arr m ρ c 2).trans (((dat5 (V11 m ρ) c).arrAt_in 2 rfl _).trans (A_eq5 (V11 m ρ) c 2))
    | ⟨3, _⟩ => exact (W12_arr m ρ c 3).trans (((dat5 (V11 m ρ) c).arrAt_in 3 rfl _).trans (A_eq5 (V11 m ρ) c 3))
    | ⟨4, _⟩ => exact absurd (show (141 : ℕ) < 141 from hb) (by decide)
  · exact W12_of_ne m ρ c b (fun w e => h ⟨w, e⟩)

/-- Region 6 writes only its result, buffer 143. -/
theorem reg6 (c : Dev nD) (b : Ref sig .tc) (hb : b.idx.val < 143) :
    W14 m ρ c (Proc.devRef .tc b) = W13 m ρ c (Proc.devRef .tc b) := by
  by_cases h : ∃ w, Pipeline.arrRef spec6 w = b
  · obtain ⟨w, rfl⟩ := h
    match w with
    | ⟨0, _⟩ => exact (W14_arr m ρ c 0).trans (((dat6 (V13 m ρ) c).arrAt_in 0 rfl _).trans (A_eq6 (V13 m ρ) c 0))
    | ⟨1, _⟩ => exact (W14_arr m ρ c 1).trans (((dat6 (V13 m ρ) c).arrAt_in 1 rfl _).trans (A_eq6 (V13 m ρ) c 1))
    | ⟨2, _⟩ => exact (W14_arr m ρ c 2).trans (((dat6 (V13 m ρ) c).arrAt_in 2 rfl _).trans (A_eq6 (V13 m ρ) c 2))
    | ⟨3, _⟩ => exact absurd (show (143 : ℕ) < 143 from hb) (by decide)
  · exact W14_of_ne m ρ c b (fun w e => h ⟨w, e⟩)

/-- Region 7 writes only its result, buffer 155. -/
theorem reg7 (c : Dev nD) (b : Ref sig .tc) (hb : b.idx.val < 155) :
    W16 m ρ c (Proc.devRef .tc b) = W15 m ρ c (Proc.devRef .tc b) := by
  by_cases h : ∃ w, Pipeline.arrRef spec7 w = b
  · obtain ⟨w, rfl⟩ := h
    match w with
    | ⟨0, _⟩ => exact (W16_arr m ρ c 0).trans (((dat7 (V15 m ρ) c).arrAt_in 0 rfl _).trans (A_eq7 (V15 m ρ) c 0))
    | ⟨1, _⟩ => exact (W16_arr m ρ c 1).trans (((dat7 (V15 m ρ) c).arrAt_in 1 rfl _).trans (A_eq7 (V15 m ρ) c 1))
    | ⟨2, _⟩ => exact (W16_arr m ρ c 2).trans (((dat7 (V15 m ρ) c).arrAt_in 2 rfl _).trans (A_eq7 (V15 m ρ) c 2))
    | ⟨3, _⟩ => exact absurd (show (155 : ℕ) < 155 from hb) (by decide)
  · exact W16_of_ne m ρ c b (fun w e => h ⟨w, e⟩)

/-! ## The arguments, at every boundary -/

/-- At launch. -/
theorem arg_0 (c : Dev nD) (b : Ref sig .tc) (hb : b.idx.val < 13) :
    W0 m ρ c (Proc.devRef .tc b) = m ((c.tc : Thread nD τ).loc b) := rfl
theorem arg_1 (c : Dev nD) (b : Ref sig .tc) (hb : b.idx.val < 13) :
    W1 m ρ c (Proc.devRef .tc b) = m ((c.tc : Thread nD τ).loc b) :=
  (host0 (W0 m ρ c) b (by omega)).trans (arg_0 m ρ c b hb)
theorem arg_2 (c : Dev nD) (b : Ref sig .tc) (hb : b.idx.val < 13) :
    W2 m ρ c (Proc.devRef .tc b) = m ((c.tc : Thread nD τ).loc b) :=
  (reg0 m ρ c b (by omega)).trans (arg_1 m ρ c b hb)
theorem arg_3 (c : Dev nD) (b : Ref sig .tc) (hb : b.idx.val < 13) :
    W3 m ρ c (Proc.devRef .tc b) = m ((c.tc : Thread nD τ).loc b) :=
  (host1 (W2 m ρ c) b (by omega)).trans (arg_2 m ρ c b hb)
theorem arg_4 (c : Dev nD) (b : Ref sig .tc) (hb : b.idx.val < 13) :
    W4 m ρ c (Proc.devRef .tc b) = m ((c.tc : Thread nD τ).loc b) :=
  (reg1 m ρ c b (by omega)).trans (arg_3 m ρ c b hb)
theorem arg_5 (c : Dev nD) (b : Ref sig .tc) (hb : b.idx.val < 13) :
    W5 m ρ c (Proc.devRef .tc b) = m ((c.tc : Thread nD τ).loc b) :=
  (host2 (W4 m ρ c) b (by omega)).trans (arg_4 m ρ c b hb)
theorem arg_6 (c : Dev nD) (b : Ref sig .tc) (hb : b.idx.val < 13) :
    W6 m ρ c (Proc.devRef .tc b) = m ((c.tc : Thread nD τ).loc b) :=
  (reg2 m ρ c b (by omega)).trans (arg_5 m ρ c b hb)
theorem arg_7 (c : Dev nD) (b : Ref sig .tc) (hb : b.idx.val < 13) :
    W7 m ρ c (Proc.devRef .tc b) = m ((c.tc : Thread nD τ).loc b) :=
  (host3 (W6 m ρ c) b (by omega)).trans (arg_6 m ρ c b hb)
theorem arg_8 (c : Dev nD) (b : Ref sig .tc) (hb : b.idx.val < 13) :
    W8 m ρ c (Proc.devRef .tc b) = m ((c.tc : Thread nD τ).loc b) :=
  (reg3 m ρ c b (by omega)).trans (arg_7 m ρ c b hb)
theorem arg_9 (c : Dev nD) (b : Ref sig .tc) (hb : b.idx.val < 13) :
    W9 m ρ c (Proc.devRef .tc b) = m ((c.tc : Thread nD τ).loc b) :=
  (host4 (W8 m ρ c) b (by omega)).trans (arg_8 m ρ c b hb)
theorem arg_10 (c : Dev nD) (b : Ref sig .tc) (hb : b.idx.val < 13) :
    W10 m ρ c (Proc.devRef .tc b) = m ((c.tc : Thread nD τ).loc b) :=
  (reg4 m ρ c b (by omega)).trans (arg_9 m ρ c b hb)
theorem arg_11 (c : Dev nD) (b : Ref sig .tc) (hb : b.idx.val < 13) :
    W11 m ρ c (Proc.devRef .tc b) = m ((c.tc : Thread nD τ).loc b) :=
  (host5 (W10 m ρ c) b (by omega)).trans (arg_10 m ρ c b hb)
theorem arg_12 (c : Dev nD) (b : Ref sig .tc) (hb : b.idx.val < 13) :
    W12 m ρ c (Proc.devRef .tc b) = m ((c.tc : Thread nD τ).loc b) :=
  (reg5 m ρ c b (by omega)).trans (arg_11 m ρ c b hb)
theorem arg_13 (c : Dev nD) (b : Ref sig .tc) (hb : b.idx.val < 13) :
    W13 m ρ c (Proc.devRef .tc b) = m ((c.tc : Thread nD τ).loc b) :=
  (host6 (W12 m ρ c) b (by omega)).trans (arg_12 m ρ c b hb)
theorem arg_14 (c : Dev nD) (b : Ref sig .tc) (hb : b.idx.val < 13) :
    W14 m ρ c (Proc.devRef .tc b) = m ((c.tc : Thread nD τ).loc b) :=
  (reg6 m ρ c b (by omega)).trans (arg_13 m ρ c b hb)
theorem arg_15 (c : Dev nD) (b : Ref sig .tc) (hb : b.idx.val < 13) :
    W15 m ρ c (Proc.devRef .tc b) = m ((c.tc : Thread nD τ).loc b) :=
  (host7 (W14 m ρ c) b (by omega)).trans (arg_14 m ρ c b hb)
theorem arg_16 (c : Dev nD) (b : Ref sig .tc) (hb : b.idx.val < 13) :
    W16 m ρ c (Proc.devRef .tc b) = m ((c.tc : Thread nD τ).loc b) :=
  (reg7 m ρ c b (by omega)).trans (arg_15 m ρ c b hb)

/-! ## What the first stretch computed, at every later boundary up to the last combining region -/
theorem first_2 (c : Dev nD) (b : Ref sig .tc) (hb : b.idx.val < 58) :
    W2 m ρ c (Proc.devRef .tc b) = W1 m ρ c (Proc.devRef .tc b) :=
  (reg0 m ρ c b (by omega))
theorem first_3 (c : Dev nD) (b : Ref sig .tc) (hb : b.idx.val < 58) :
    W3 m ρ c (Proc.devRef .tc b) = W1 m ρ c (Proc.devRef .tc b) :=
  (host1 (W2 m ρ c) b (by omega)).trans (first_2 m ρ c b hb)
theorem first_4 (c : Dev nD) (b : Ref sig .tc) (hb : b.idx.val < 58) :
    W4 m ρ c (Proc.devRef .tc b) = W1 m ρ c (Proc.devRef .tc b) :=
  (reg1 m ρ c b (by omega)).trans (first_3 m ρ c b hb)
theorem first_5 (c : Dev nD) (b : Ref sig .tc) (hb : b.idx.val < 58) :
    W5 m ρ c (Proc.devRef .tc b) = W1 m ρ c (Proc.devRef .tc b) :=
  (host2 (W4 m ρ c) b (by omega)).trans (first_4 m ρ c b hb)
theorem first_6 (c : Dev nD) (b : Ref sig .tc) (hb : b.idx.val < 58) :
    W6 m ρ c (Proc.devRef .tc b) = W1 m ρ c (Proc.devRef .tc b) :=
  (reg2 m ρ c b (by omega)).trans (first_5 m ρ c b hb)
theorem first_7 (c : Dev nD) (b : Ref sig .tc) (hb : b.idx.val < 58) :
    W7 m ρ c (Proc.devRef .tc b) = W1 m ρ c (Proc.devRef .tc b) :=
  (host3 (W6 m ρ c) b (by omega)).trans (first_6 m ρ c b hb)
theorem first_8 (c : Dev nD) (b : Ref sig .tc) (hb : b.idx.val < 58) :
    W8 m ρ c (Proc.devRef .tc b) = W1 m ρ c (Proc.devRef .tc b) :=
  (reg3 m ρ c b (by omega)).trans (first_7 m ρ c b hb)
theorem first_9 (c : Dev nD) (b : Ref sig .tc) (hb : b.idx.val < 58) :
    W9 m ρ c (Proc.devRef .tc b) = W1 m ρ c (Proc.devRef .tc b) :=
  (host4 (W8 m ρ c) b (by omega)).trans (first_8 m ρ c b hb)
theorem first_10 (c : Dev nD) (b : Ref sig .tc) (hb : b.idx.val < 58) :
    W10 m ρ c (Proc.devRef .tc b) = W1 m ρ c (Proc.devRef .tc b) :=
  (reg4 m ρ c b (by omega)).trans (first_9 m ρ c b hb)
theorem first_11 (c : Dev nD) (b : Ref sig .tc) (hb : b.idx.val < 58) :
    W11 m ρ c (Proc.devRef .tc b) = W1 m ρ c (Proc.devRef .tc b) :=
  (host5 (W10 m ρ c) b (by omega)).trans (first_10 m ρ c b hb)

end Cert.KernelIdeal.Keep

end
-- ==== Proof.LibPlainDot.lean ====
import Idealize.ShloMosaic.Lib.ValueIdx
import Idealize.ShloMosaic.PureOps.Ideal.Laws

/-!
# A product of an R×K matrix by a K×C matrix, read at an entry

A matrix product whose dimension numbers contract the left operand's second axis with the right
operand's first, and keep the left's rows and the right's columns, has at the entry `(p, q)` the sum over
`k` of `x (p, k) * w (k, q)`.  The dimension numbers enter only through six facts: the contraction has one
axis, of extent `K`, and the four coordinates of the two operand indices.  Both the vector unit's matrix
product into a zero accumulator and the host's `dot_general` are that sum on the extended reals.
-/

noncomputable section

open scoped BigOperators

namespace Cert.LibPlainDot

open Idealize.ShloMosaic Idealize.ShloMosaic.ValueIdx

variable {R K C : Nat} (D : DotDims ⟨2, ![R, K]⟩ ⟨2, ![K, C]⟩ ⟨2, ![R, C]⟩)

/-- The contraction's sum re-indexed by the one contracted coordinate. -/
theorem sum_contr (hr : D.contr.rank = 1) (hs : D.contr.size ⟨0, by omega⟩ = K)
    (l0 : ∀ (i : (⟨2, ![R, C]⟩ : Shape).Idx) (q : D.contr.Idx), (D.lhsIdx i q 0).val = (i 0).val)
    (l1 : ∀ (i : (⟨2, ![R, C]⟩ : Shape).Idx) (q : D.contr.Idx), (D.lhsIdx i q 1).val = (q ⟨0, by omega⟩).val)
    (r0 : ∀ (i : (⟨2, ![R, C]⟩ : Shape).Idx) (q : D.contr.Idx), (D.rhsIdx i q 0).val = (q ⟨0, by omega⟩).val)
    (r1 : ∀ (i : (⟨2, ![R, C]⟩ : Shape).Idx) (q : D.contr.Idx), (D.rhsIdx i q 1).val = (i 1).val)
    (x : (⟨2, ![R, K]⟩ : Shape).Idx → EReal) (w : (⟨2, ![K, C]⟩ : Shape).Idx → EReal) (i : (⟨2, ![R, C]⟩ : Shape).Idx) :
    ∑ k : D.contr.Idx, x (D.lhsIdx i k) * w (D.rhsIdx i k) = ∑ k : Fin K, x (ix2 (i 0) k) * w (ix2 k (i 1)) := by
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact l0 _ _
    | ⟨1, _⟩ => exact (l1 _ _).trans hk)
  have er : D.rhsIdx i ((contrEquiv1 D K hr hs).symm k) = ix2 k (i 1) := funext fun a => Fin.ext (by
    match a with
    | ⟨0, _⟩ => exact (r0 _ _).trans hk
    | ⟨1, _⟩ => exact r1 _ _)
  exact congrArg₂ (· * ·) (congrArg x el) (congrArg w er)

end Cert.LibPlainDot

end
-- ==== Proof.Layers.lean ====
import Idealize.ShloMosaic.Lib.Pipeline.Value
import Idealize.ShloMosaic.Lib.ValueIdx
import Idealize.ShloMosaic.PureOps.Ideal.Laws
import proofs.«113334_j17016660427423_1_alg».proof.Proof.LibPlainDot

/-!
# The two layers, as functions of whole arrays on the extended reals

A linear layer takes a matrix `x`, a weight matrix `w` and a one-row bias `b` to the matrix whose entry
`(p, q)` is `∑ k, x (p, k) * w (k, q) + b (0, q)`.  A combining layer takes an aggregate `a`, a matrix `h`,
a one-column factor `s` and a one-row bias `b` to `max (a (p, q) + h (p, q) * s (p, 0) + b (0, q)) 0`.

Each is first a function of a whole array of any number of rows.  Then the arithmetic a kernel body does on a
block of 5000 rows — a matrix product of the narrowed operands into a zero accumulator, the bias row stretched
over the rows, for the combining layer the column stretched over the lanes — is shown to be that function of
the block.  Narrowing a float's format is the identity on the extended reals, and a reshape to the same shape
is the identity, so neither shows in the result.
-/

noncomputable section

open scoped BigOperators

namespace Cert.Layers

open Idealize.ShloMosaic Idealize.ShloMosaic.ValueIdx

/-- A matrix of extended reals with `r` rows and `c` columns. -/
abbrev Mat (r c : Nat) : Type := (⟨2, ![r, c]⟩ : Shape).Idx → EReal

/-- The linear layer: `x · w` plus the bias row. -/
def linArr {R K C : Nat} (x : Mat R K) (w : Mat K C) (b : Mat 1 C) : Mat R C :=
  fun i => (∑ k : Fin K, x (ix2 (i 0) k) * w (ix2 k (i 1))) + b (ix2 (0 : Fin 1) (i 1))

/-- The positive part, entry by entry. -/
def reluArr {R C : Nat} (a : Mat R C) : Mat R C := fun i => max (a i) 0

/-- The combining layer: the aggregate plus the self term scaled row by row plus the bias row, then the positive part. -/
def combArr {R C : Nat} (a h : Mat R C) (s : Mat R 1) (b : Mat 1 C) : Mat R C :=
  fun i => max (a i + h i * s (ix2 (i 0) (0 : Fin 1)) + b (ix2 (0 : Fin 1) (i 1))) 0

/-! ## A body's arithmetic on a block of 5000 rows -/

section Block

variable (D : DotDims ⟨2, ![5000, 128]⟩ ⟨2, ![128, 128]⟩ ⟨2, ![5000, 128]⟩)
  (hr : D.contr.rank = 1) (hs : D.contr.size ⟨0, by omega⟩ = 128)
  (l0 : ∀ (i : (⟨2, ![5000, 128]⟩ : Shape).Idx) (q : D.contr.Idx), (D.lhsIdx i q 0).val = (i 0).val)
  (l1 : ∀ (i : (⟨2, ![5000, 128]⟩ : Shape).Idx) (q : D.contr.Idx), (D.lhsIdx i q 1).val = (q ⟨0, by omega⟩).val)
  (r0 : ∀ (i : (⟨2, ![5000, 128]⟩ : Shape).Idx) (q : D.contr.Idx), (D.rhsIdx i q 0).val = (q ⟨0, by omega⟩).val)
  (r1 : ∀ (i : (⟨2, ![5000, 128]⟩ : Shape).Idx) (q : D.contr.Idx), (D.rhsIdx i q 1).val = (i 1).val)

/-- The bias row stretched over 5000 rows reads the row's entry in the same column. -/
theorem biasRow_apply (b : Mat 1 128) (hbc : (⟨2, ![1, 128]⟩ : Shape).Broadcasts ⟨2, ![5000, 128]⟩)
    (i : (⟨2, ![5000, 128]⟩ : Shape).Idx) :
    broadcastTo ⟨2, ![5000, 128]⟩ b hbc i = b (ix2 (0 : Fin 1) (i 1)) :=
  broadcastTo_apply b hbc i (ix2 (0 : Fin 1) (i 1)) (fun a => by
    match a with
    | ⟨0, _⟩ => rfl
    | ⟨1, _⟩ => rfl)

/-- The factor column stretched over 128 lanes reads the column's entry in the same row. -/
theorem factorCol_apply (s : Mat 5000 1) (hbc : (⟨2, ![5000, 1]⟩ : Shape).Broadcasts ⟨2, ![5000, 128]⟩)
    (i : (⟨2, ![5000, 128]⟩ : Shape).Idx) :
    broadcastTo ⟨2, ![5000, 128]⟩ s hbc i = s (ix2 (i 0) (0 : Fin 1)) :=
  broadcastTo_apply s hbc i (ix2 (i 0) (0 : Fin 1)) (fun a => by
    match a with
    | ⟨0, _⟩ => rfl
    | ⟨1, _⟩ => rfl)

include hr hs l0 l1 r0 r1 in
/-- The linear body on a block: the product of the narrowed operands into a zero accumulator plus the stretched
    bias row is the linear layer of the block. -/
theorem linear_block (hlt : FTy.bf16.bits < FTy.f32.bits)
    (hbc : (⟨2, ![1, 128]⟩ : Shape).Broadcasts ⟨2, ![5000, 128]⟩)
    (x : Mat 5000 128) (w : Mat 128 128) (b : Mat 1 128) :
    addf (F := Ideal) (matmul (F := Ideal) D none (truncf (F := Ideal) .bf16 (x : FVec Ideal _ .f32) hlt) (truncf (F := Ideal) .bf16 (w : FVec Ideal _ .f32) hlt)
        (constant (F := Ideal) ⟨2, ![5000, 128]⟩ .f32 0x00000000#32))
      (broadcastTo ⟨2, ![5000, 128]⟩ b hbc) = linArr x w b := by
  funext i
  rw [addf_apply, biasRow_apply]
  refine congrArg (· + b (ix2 (0 : Fin 1) (i 1))) ?_
  refine (Ideal.matmul_constant_zero_apply D none _ _ i).trans ?_
  exact Cert.LibPlainDot.sum_contr D hr hs l0 l1 r0 r1 x w i

/-- The positive part of a block: the maximum with the zero splat. -/
theorem relu_block (v : Mat 5000 128) :
    maximumf (F := Ideal) (v : FVec Ideal _ .f32) (broadcast ⟨2, ![5000, 128]⟩ (Scalar.ofBits (F := Ideal) .f32 0x00000000#32)) = reluArr v := by
  funext i
  rw [maximumf_apply, broadcast_apply]
  exact congrArg (max (v i)) Ideal.ofBits_zero_f32

/-- The combining body on a block: aggregate plus the block times the stretched factor column plus the stretched bias
    row, then the maximum with the zero splat, is the combining layer of the block. -/
theorem comb_block (hbs : (⟨2, ![5000, 1]⟩ : Shape).Broadcasts ⟨2, ![5000, 128]⟩)
    (hbb : (⟨2, ![1, 128]⟩ : Shape).Broadcasts ⟨2, ![5000, 128]⟩)
    (a h : Mat 5000 128) (s : Mat 5000 1) (b : Mat 1 128) :
    maximumf (F := Ideal) (addf (F := Ideal) (addf (F := Ideal) (a : FVec Ideal _ .f32) (mulf (F := Ideal) (h : FVec Ideal _ .f32) (broadcastTo ⟨2, ![5000, 128]⟩ s hbs)))
        (broadcastTo ⟨2, ![5000, 128]⟩ b hbb))
      (broadcast ⟨2, ![5000, 128]⟩ (Scalar.ofBits (F := Ideal) .f32 0x00000000#32)) = combArr a h s b := by
  funext i
  rw [maximumf_apply, broadcast_apply, addf_apply, addf_apply, mulf_apply, factorCol_apply, biasRow_apply]
  exact congrArg (max (a i + h i * s (ix2 (i 0) (0 : Fin 1)) + b (ix2 (0 : Fin 1) (i 1)))) Ideal.ofBits_zero_f32

end Block

end Cert.Layers

end
-- ==== Proof.Bridge.lean ====
import proofs.«113334_j17016660427423_1_alg».proof.Proof.Gen.ReferenceIdeal.Read
import proofs.«113334_j17016660427423_1_alg».proof.Proof.Layers
import Idealize.ShloMosaic.Lib.Pipeline.Value

/-!
# The reference's stages are the two layers

The reference computes a linear layer as a `dot_general` followed, where there is a bias, by the sum with the
bias vector stretched over the rows; and a combining layer as the sum of the aggregate, the linear part times
the self-loop column stretched over the lanes, and the stretched bias, followed by the maximum with zero.
Read at an entry these are the functions `linArr`, `reluArr` and `combArr`: the product's entry is the same
sum over the contracted axis, a stretched vector or column reads its one entry in that column or row, and the
kernel's bias row — the bias vector reshaped to one row — reads the vector's entry in the same column.
-/

noncomputable section

open scoped BigOperators

namespace Cert.Bridge

open Cert.ReferenceIdeal Cert.ReferenceIdeal.Read Cert.Layers
open Idealize.ShloMosaic Idealize.ShloMosaic.ValueIdx

/-- The host's product of a 50000×128 matrix by a 128×128 matrix, read at an entry. -/
theorem dot_apply (x : Mat 50000 128) (w : Mat 128 128) (i : S50000x128.Idx) :
    val_main_v33 (F := Ideal) x w i = ∑ k : Fin 128, x (ix2 (i 0) k) * w (ix2 k (i 1)) := by
  rw [val_main_v33_apply]
  refine Finset.sum_congr rfl fun k _ => ?_
  have el : lidx_main_v33 i k = ix2 (i 0) k := funext fun a => by
    match a with
    | ⟨0, _⟩ => rfl
    | ⟨1, _⟩ => rfl
  have er : ridx_main_v33 i k = ix2 k (i 1) := funext fun a => by
    match a with
    | ⟨0, _⟩ => rfl
    | ⟨1, _⟩ => rfl
  exact congrArg₂ (· * ·) (congrArg x el) (congrArg w er)

/-- The linear layer of whole arrays is the host's product plus the bias row's entry in the column. -/
theorem lin_apply (x : Mat 50000 128) (w : Mat 128 128) (b : Mat 1 128) (i : S50000x128.Idx) :
    linArr x w b i = val_main_v33 (F := Ideal) x w i + b (ix2 (0 : Fin 1) (i 1)) := by
  rw [dot_apply]; rfl

/-- With a bias row of zeros the linear layer is the host's product. -/
theorem lin_zero (x : Mat 50000 128) (w : Mat 128 128) (z : Mat 1 128) (hz : ∀ i, z i = 0) :
    linArr x w z = val_main_v33 (F := Ideal) x w := by
  funext i
  rw [lin_apply, hz, add_zero]

/-- A vector of 128 reshaped to one row reads the vector's entry in the same column. -/
theorem row_apply (v : S128.Idx → EReal) (h : S128.ShapeCasts S1x128) (q : Fin 128) :
    shapeCast S1x128 v h (ix2 (0 : Fin 1) q) = v (ix1 q) :=
  (shapeCast_addUnit_apply ![128] v h (ix2 (0 : Fin 1) q)).trans (congrArg v (funext fun a => by
    match a with
    | ⟨0, _⟩ => rfl))

/-- Layer 1 of the reference, from its aggregate and its linear part, is the combining layer. -/
theorem comb1 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (h : S128.ShapeCasts S1x128) :
    combArr (val_main_v51 (F := Ideal) x0 x1 x3) (val_main_v33 (F := Ideal) x0 x3) (val_main_v32 (F := Ideal) x1) (shapeCast S1x128 x4 h)
      = val_main_v58 (F := Ideal) x0 x1 x3 x4 := by
  funext i
  rw [val_main_v58_apply, val_main_v57_apply, val_main_v54_apply, val_main_v53_apply, val_main_v52_apply, val_main_v56_apply, val_main_v55_apply, val_main_call0_v0_apply, val_main_call0_cst_apply]
  have e1 : val_main_v32 (F := Ideal) x1 (idx_main_v52 i) = val_main_v32 (F := Ideal) x1 (ix2 (i 0) (0 : Fin 1)) :=
    congrArg (val_main_v32 (F := Ideal) x1) (funext fun a => by
      match a with
      | ⟨0, _⟩ => rfl
      | ⟨1, _⟩ => rfl)
  have e2 : x4 (idx_main_v55 (idx_main_v56 i)) = shapeCast S1x128 x4 h (ix2 (0 : Fin 1) (i 1)) :=
    ((row_apply x4 h (i 1)).trans (congrArg x4 (funext fun a => by
      match a with
      | ⟨0, _⟩ => rfl))).symm
  rw [e1, e2]
  exact congrArg (max _) Ideal.ofBits_zero_f32.symm

/-- Layer 2 of the reference, from its aggregate and its linear part, is the combining layer. -/
theorem comb2 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (h : S128.ShapeCasts S1x128) :
    combArr (val_main_v77 (F := Ideal) x0 x1 x3 x4 x5) (val_main_v59 (F := Ideal) x0 x1 x3 x4 x5) (val_main_v32 (F := Ideal) x1) (shapeCast S1x128 x6 h)
      = val_main_v84 (F := Ideal) x0 x1 x3 x4 x5 x6 := by
  funext i
  rw [val_main_v84_apply, val_main_v83_apply, val_main_v80_apply, val_main_v79_apply, val_main_v78_apply, val_main_v82_apply, val_main_v81_apply, val_main_call1_v0_apply, val_main_call1_cst_apply]
  have e1 : val_main_v32 (F := Ideal) x1 (idx_main_v78 i) = val_main_v32 (F := Ideal) x1 (ix2 (i 0) (0 : Fin 1)) :=
    congrArg (val_main_v32 (F := Ideal) x1) (funext fun a => by
      match a with
      | ⟨0, _⟩ => rfl
      | ⟨1, _⟩ => rfl)
  have e2 : x6 (idx_main_v81 (idx_main_v82 i)) = shapeCast S1x128 x6 h (ix2 (0 : Fin 1) (i 1)) :=
    ((row_apply x6 h (i 1)).trans (congrArg x6 (funext fun a => by
      match a with
      | ⟨0, _⟩ => rfl))).symm
  rw [e1, e2]
  exact congrArg (max _) Ideal.ofBits_zero_f32.symm

/-- Layer 3 of the reference, from its aggregate and its linear part, is the combining layer. -/
theorem comb3 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (h : S128.ShapeCasts S1x128) :
    combArr (val_main_v103 (F := Ideal) x0 x1 x3 x4 x5 x6 x7) (val_main_v85 (F := Ideal) x0 x1 x3 x4 x5 x6 x7) (val_main_v32 (F := Ideal) x1) (shapeCast S1x128 x8 h)
      = val_main_v110 (F := Ideal) x0 x1 x3 x4 x5 x6 x7 x8 := by
  funext i
  rw [val_main_v110_apply, val_main_v109_apply, val_main_v106_apply, val_main_v105_apply, val_main_v104_apply, val_main_v108_apply, val_main_v107_apply, val_main_call2_v0_apply, val_main_call2_cst_apply]
  have e1 : val_main_v32 (F := Ideal) x1 (idx_main_v104 i) = val_main_v32 (F := Ideal) x1 (ix2 (i 0) (0 : Fin 1)) :=
    congrArg (val_main_v32 (F := Ideal) x1) (funext fun a => by
      match a with
      | ⟨0, _⟩ => rfl
      | ⟨1, _⟩ => rfl)
  have e2 : x8 (idx_main_v107 (idx_main_v108 i)) = shapeCast S1x128 x8 h (ix2 (0 : Fin 1) (i 1)) :=
    ((row_apply x8 h (i 1)).trans (congrArg x8 (funext fun a => by
      match a with
      | ⟨0, _⟩ => rfl))).symm
  rw [e1, e2]
  exact congrArg (max _) Ideal.ofBits_zero_f32.symm

end Cert.Bridge

end
-- ==== Proof.LibScatterSet.lean ====
import Idealize.ShloMosaic.PureOps.ShapeOps

/-!
# A scatter that overwrites, read at an entry one update lands on

The host's scatter folds over the update's entries in row-major order; each entry that lands inside the operand
replaces (through the body `f`) the operand's entry it lands on.  When exactly one update entry `j` lands on the
operand's entry `i`, the result at `i` is `f` of the operand's entry and that update entry: the steps before and
after `j`'s leave `i` alone.  With the body returning the update (`x.at[…].set(u)`) that is the update's entry.
-/

noncomputable section

namespace Cert.LibScatterSet

open Idealize.ShloMosaic

variable {α : Type} {s si u : Shape} {w : Nat} (d : ScatterDims s si u) (idx : IVec si w) (upd : u.Idx → α)
  (f : α → α → α)

/-- One step of the fold, read at the entry `i`: the body's value if the position lands on `i`, else what was there. -/
theorem step_apply (r : s.Idx → α) (a : Fin u.numel) (i : s.Idx) :
    (match d.resultIdx? (u.rowMajor.symm a) idx with
      | some i0 => fun i' => if i' = i0 then f (r i0) (upd (u.rowMajor.symm a)) else r i'
      | none => r) i
      = if d.resultIdx? (u.rowMajor.symm a) idx = some i then f (r i) (upd (u.rowMajor.symm a)) else r i := by
  cases hq : d.resultIdx? (u.rowMajor.symm a) idx with
  | none => simp
  | some i0 =>
    by_cases e : i = i0
    · subst e; simp
    · have e' : ¬ i0 = i := fun h => e h.symm
      simp [e, e']

/-- The fold over a list of update positions none of which lands on `i` leaves the entry `i` as it was. -/
theorem foldl_miss (L : List (Fin u.numel)) (r : s.Idx → α) (i : s.Idx)
    (h : ∀ n ∈ L, d.resultIdx? (u.rowMajor.symm n) idx ≠ some i) :
    (L.foldl (fun r n =>
      match d.resultIdx? (u.rowMajor.symm n) idx with
      | some i => fun i' => if i' = i then f (r i) (upd (u.rowMajor.symm n)) else r i'
      | none => r) r) i = r i := by
  induction L generalizing r with
  | nil => rfl
  | cons a L ih =>
    rw [List.foldl_cons, ih _ (fun n hn => h n (List.mem_cons_of_mem _ hn))]
    rw [step_apply]
    exact if_neg (h a List.mem_cons_self)

/-- The fold over a list without repeats in which exactly the position `n` lands on `i` leaves at `i` the body
    applied to the entry it found there and the update's entry at `n`. -/
theorem foldl_hit (L : List (Fin u.numel)) (hnd : L.Nodup) (r : s.Idx → α) (i : s.Idx) (n : Fin u.numel) (hn : n ∈ L)
    (hres : d.resultIdx? (u.rowMajor.symm n) idx = some i)
    (huniq : ∀ n' ∈ L, d.resultIdx? (u.rowMajor.symm n') idx = some i → n' = n) :
    (L.foldl (fun r n =>
      match d.resultIdx? (u.rowMajor.symm n) idx with
      | some i => fun i' => if i' = i then f (r i) (upd (u.rowMajor.symm n)) else r i'
      | none => r) r) i = f (r i) (upd (u.rowMajor.symm n)) := by
  induction L generalizing r with
  | nil => exact absurd hn (List.not_mem_nil)
  | cons a L ih =>
    rw [List.foldl_cons]
    have hnd' : L.Nodup := (List.nodup_cons.mp hnd).2
    have haL : a ∉ L := (List.nodup_cons.mp hnd).1
    by_cases han : a = n
    · subst han
      rw [foldl_miss d idx upd f L _ i (fun n' hn' e => haL ((huniq n' (List.mem_cons_of_mem _ hn') e) ▸ hn'))]
      rw [step_apply]
      exact if_pos hres
    · have hnL : n ∈ L := by
        rcases List.mem_cons.mp hn with e | e
        · exact absurd e.symm han
        · exact e
      rw [ih hnd' _ hnL (fun n' hn' e => huniq n' (List.mem_cons_of_mem _ hn') e)]
      refine congrArg (fun v => f v (upd (u.rowMajor.symm n))) ?_
      rw [step_apply]
      exact if_neg (fun e => han (huniq a List.mem_cons_self e))

/-- The scatter at an entry exactly one update entry lands on. -/
theorem scatter_hit (x : s.Idx → α) (j : u.Idx) (i : s.Idx) (hres : d.resultIdx? j idx = some i)
    (huniq : ∀ j', d.resultIdx? j' idx = some i → j' = j) :
    Host.scatter d f x idx upd i = f (x i) (upd j) := by
  unfold Host.scatter
  have h := foldl_hit d idx upd f (List.finRange u.numel) (List.nodup_finRange _) x i (u.rowMajor j) (List.mem_finRange _)
    (by rw [Equiv.symm_apply_apply]; exact hres)
    (fun n' _ e => by
      have := huniq _ e
      rw [← this, Equiv.apply_symm_apply])
  rw [Equiv.symm_apply_apply] at h
  exact h

end Cert.LibScatterSet

end
-- ==== Proof.LibScatterLanding.lean ====
/-
  Where a scatter's update lands, for ANY scatter dimension numbers.

  An update element `j` of a `stablehlo.scatter` lands on operand index `i` exactly when, on every operand axis,
  the start read off the scatter indices (a signed integer, not clamped) plus `j`'s window coordinate equals `i`'s
  coordinate; otherwise — some axis out of range — the update is dropped.  This turns the option-valued
  `ScatterDims.resultIdx?` into one equation per axis, which is the form in which an accumulating scatter's exact
  sum ("each operand element plus the sum of the updates landing on it") is re-indexed by hand.
-/
import Idealize.ShloMosaic.PureOps.Ideal

namespace Idealize.ShloMosaic.ScatterDims

/-- An update lands on operand index `i` exactly when, on every axis, start plus window coordinate is
    `i`'s coordinate (which is then in range, so nothing is dropped). -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · rintro rfl a
      have := h a
      show _ = (((d.start j idx a + (d.window j a : Int)).toNat : Nat) : Int)
      omega
    · intro e
      funext a
      apply Fin.ext
      have := e a
      have := h a
      show (d.start j idx a + (d.window j a : Int)).toNat = (i a).val
      omega
  · rename_i h
    constructor
    · intro e; cases e
    · intro e
      exfalso
      apply h
      intro a
      have := e a
      have := (i a).isLt
      omega

end Idealize.ShloMosaic.ScatterDims
-- ==== Proof.Pad.lean ====
import proofs.«113334_j17016660427423_1_alg».proof.Proof.Gen.KernelIdeal
import proofs.«113334_j17016660427423_1_alg».proof.Proof.LibScatterSet
import proofs.«113334_j17016660427423_1_alg».proof.Proof.LibScatterLanding
import Idealize.ShloMosaic.Lib.ValueIdx

/-!
# The padded weight matrix and bias vector, read where the original lies

The last linear layer's 128×2 weight matrix is written into the first two columns of a 128×128 matrix of zeros,
and its 2-entry bias into the first two entries of a 128-entry vector of zeros, by a scatter that overwrites at
one start index, zero.  An update entry lands on the operand's entry with the same coordinates, and no other
update entry lands there, so in the first two columns the padded matrix holds the original matrix, and in the
first two entries the padded vector holds the original vector.
-/

noncomputable section

namespace Cert.KernelIdeal.Pad

open Cert.KernelIdeal Idealize.ShloMosaic Idealize.ShloMosaic.ValueIdx

variable {α : Type}

local notation "dW" => scatter_S128x128_S1_S128x2_01_n_1_0
local notation "dB" => scatter_S128_S1_S2_0_n_0_0

theorem startW (idx : IVec S1 32) (hidx : ∀ p, idx p = 0#32) (j : S128x2.Idx) (a : Fin 2) : (dW).start j idx a = 0 := by
  unfold ScatterDims.start
  split
  · rw [hidx]; rfl
  · rfl

theorem windowW (j : S128x2.Idx) (a : Fin 2) : (dW).window j a = (j a).val := by
  match a with
  | ⟨0, _⟩ => rfl
  | ⟨1, _⟩ => rfl

/-- In its first two columns the padded matrix holds the original matrix. -/
theorem padW_apply (x : S128x128.Idx → α) (idx : IVec S1 32) (hidx : ∀ p, idx p = 0#32) (upd : S128x2.Idx → α)
    (k : Fin 128) (q : Fin 2) :
    Host.scatter dW (fun _ b => b) x idx upd (ix2 k (⟨q.val, by omega⟩ : Fin 128)) = upd (ix2 k q) := by
  refine Cert.LibScatterSet.scatter_hit dW idx upd (fun _ b => b) x (ix2 k q) _ ?_ ?_
  · rw [ScatterDims.resultIdx?_eq_some_iff]
    intro a
    rw [startW idx hidx, windowW]
    match a with
    | ⟨0, _⟩ => simp
    | ⟨1, _⟩ => simp
  · intro j' hj'
    rw [ScatterDims.resultIdx?_eq_some_iff] at hj'
    funext a
    apply Fin.ext
    have h := hj' a
    rw [startW idx hidx, windowW] at h
    match a with
    | ⟨0, _⟩ => simpa using h
    | ⟨1, _⟩ => simpa using h

theorem startB (idx : IVec S1 32) (hidx : ∀ p, idx p = 0#32) (j : S2.Idx) (a : Fin 1) : (dB).start j idx a = 0 := by
  unfold ScatterDims.start
  split
  · rw [hidx]; rfl
  · rfl

theorem windowB (j : S2.Idx) (a : Fin 1) : (dB).window j a = (j a).val := by
  match a with
  | ⟨0, _⟩ => rfl

/-- In its first two entries the padded vector holds the original vector. -/
theorem padB_apply (x : S128.Idx → α) (idx : IVec S1 32) (hidx : ∀ p, idx p = 0#32) (upd : S2.Idx → α) (q : Fin 2) :
    Host.scatter dB (fun _ b => b) x idx upd (ix1 (⟨q.val, by omega⟩ : Fin 128)) = upd (ix1 q) := by
  refine Cert.LibScatterSet.scatter_hit dB idx upd (fun _ b => b) x (ix1 q) _ ?_ ?_
  · rw [ScatterDims.resultIdx?_eq_some_iff]
    intro a
    rw [startB idx hidx, windowB]
    match a with
    | ⟨0, _⟩ => simp
  · intro j' hj'
    rw [ScatterDims.resultIdx?_eq_some_iff] at hj'
    funext a
    apply Fin.ext
    have h := hj' a
    rw [startB idx hidx, windowB] at h
    match a with
    | ⟨0, _⟩ => simpa using h

end Cert.KernelIdeal.Pad

end
-- ==== Proof.Fc.lean ====
import proofs.«113334_j17016660427423_1_alg».proof.Proof.Bridge
import proofs.«113334_j17016660427423_1_alg».proof.Proof.Pad

/-!
# The two dense layers after the graph layers

The first dense layer: the kernel's linear layer with the bias row (the bias vector reshaped to one row) followed by
the positive part is the reference's product plus stretched bias followed by the maximum with zero.

The second dense layer: the kernel multiplies by the 128×2 weight matrix padded with zero columns to 128×128, adds
the bias padded with zeros to 128 entries, and keeps the first two columns of the result.  An entry in one of
those two columns is the sum over `k` of the row's entry `k` times the padded matrix's entry in row `k` of that
column — the original matrix's entry — plus the padded bias's entry in that column — the original bias's entry:
the reference's product with the 128×2 matrix plus its stretched bias.  The padded columns are never read.
-/

set_option maxRecDepth 16384

noncomputable section

open scoped BigOperators

namespace Cert.KernelIdeal.Fc

open Cert.KernelIdeal Cert.KernelIdeal.Facts₀ Cert.KernelIdeal.Facts Cert.Layers Cert.Bridge
open Idealize.ShloMosaic Idealize.ShloMosaic.ValueIdx

/-- The first dense layer. -/
theorem fc1 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (h : S128.ShapeCasts S1x128) :
    reluArr (linArr (Cert.ReferenceIdeal.Read.val_main_v110 (F := Ideal) x0 x1 x3 x4 x5 x6 x7 x8) x9 (shapeCast S1x128 x10 h))
      = Cert.ReferenceIdeal.Read.val_main_v115 (F := Ideal) x0 x1 x3 x4 x5 x6 x7 x8 x9 x10 := by
  funext i
  rw [Cert.ReferenceIdeal.Read.val_main_v115_apply, Cert.ReferenceIdeal.Read.val_main_v114_apply, Cert.ReferenceIdeal.Read.val_main_v113_apply, Cert.ReferenceIdeal.Read.val_main_v112_apply, Cert.ReferenceIdeal.Read.val_main_call3_v0_apply, Cert.ReferenceIdeal.Read.val_main_call3_cst_apply]
  have e2 : x10 (Cert.ReferenceIdeal.Read.idx_main_v112 (Cert.ReferenceIdeal.Read.idx_main_v113 i)) = shapeCast S1x128 x10 h (ix2 (0 : Fin 1) (i 1)) :=
    ((row_apply x10 h (i 1)).trans (congrArg x10 (funext fun a => by
      match a with
      | ⟨0, _⟩ => rfl))).symm
  rw [e2]
  have e0 : linArr (Cert.ReferenceIdeal.Read.val_main_v110 (F := Ideal) x0 x1 x3 x4 x5 x6 x7 x8) x9 (shapeCast S1x128 x10 h) i
      = Cert.ReferenceIdeal.Read.val_main_v111 (F := Ideal) x0 x1 x3 x4 x5 x6 x7 x8 x9 i + shapeCast S1x128 x10 h (ix2 (0 : Fin 1) (i 1)) :=
    lin_apply _ _ _ i
  show max (linArr (Cert.ReferenceIdeal.Read.val_main_v110 (F := Ideal) x0 x1 x3 x4 x5 x6 x7 x8) x9 (shapeCast S1x128 x10 h) i) 0 = _
  rw [e0]
  exact congrArg (max _) Ideal.ofBits_zero_f32.symm

/-- The second dense layer, in the two columns that are kept. -/
theorem fc2 (x0 : (⟨S50000x128, .f32⟩ : BufTy).Contents (Elt Ideal)) (x1 : (⟨S2x800000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x2, .f32⟩ : BufTy).Contents (Elt Ideal)) (x12 : (⟨S2, .f32⟩ : BufTy).Contents (Elt Ideal))
    (zW : S128x128.Idx → EReal) (idxW : IVec S1 32) (hW : ∀ p, idxW p = 0#32)
    (zB : S128.Idx → EReal) (idxB : IVec S1 32) (hB : ∀ p, idxB p = 0#32) (h : S128.ShapeCasts S1x128) :
    extractStridedSlice S50000x2 ![0, 0]
        (linArr (Cert.ReferenceIdeal.Read.val_main_v115 (F := Ideal) x0 x1 x3 x4 x5 x6 x7 x8 x9 x10)
          (Host.scatter scatter_S128x128_S1_S128x2_01_n_1_0 (fun _ b => b) zW idxW x11)
          (shapeCast S1x128 (Host.scatter scatter_S128_S1_S2_0_n_0_0 (fun _ b => b) zB idxB x12) h))
        slices_S50000x128_S50000x2_0_0
      = Cert.ReferenceIdeal.Read.val_main_v119 (F := Ideal) x0 x1 x3 x4 x5 x6 x7 x8 x9 x10 x11 x12 := by
  funext i
  rw [Cert.ReferenceIdeal.Read.val_main_v119_apply, Cert.ReferenceIdeal.Read.val_main_v118_apply, Cert.ReferenceIdeal.Read.val_main_v117_apply, Cert.ReferenceIdeal.Read.val_main_v116_apply]
  have hq2 : (i 1).val < 2 := (i 1).isLt
  have hq : (i 1).val < 128 := by omega
  generalize hY : linArr (Cert.ReferenceIdeal.Read.val_main_v115 (F := Ideal) x0 x1 x3 x4 x5 x6 x7 x8 x9 x10)
      (Host.scatter scatter_S128x128_S1_S128x2_01_n_1_0 (fun _ b => b) zW idxW x11)
      (shapeCast S1x128 (Host.scatter scatter_S128_S1_S2_0_n_0_0 (fun _ b => b) zB idxB x12) h) = Y
  refine (extractStridedSlice_apply (s := S50000x128) (t := S50000x2) ![0, 0] Y slices_S50000x128_S50000x2_0_0 i (ix2 (i 0) (⟨(i 1).val, hq⟩ : Fin 128)) (fun a => by
    match a with
    | ⟨0, _⟩ => show (i 0).val = 0 + (i 0).val; omega
    | ⟨1, _⟩ => show (i 1).val = 0 + (i 1).val; omega)).trans ?_
  subst hY
  show (∑ k : Fin 128, Cert.ReferenceIdeal.Read.val_main_v115 (F := Ideal) x0 x1 x3 x4 x5 x6 x7 x8 x9 x10 (ix2 (i 0) k)
        * Host.scatter scatter_S128x128_S1_S128x2_01_n_1_0 (fun _ b => b) zW idxW x11 (ix2 k (⟨(i 1).val, hq⟩ : Fin 128)))
      + shapeCast S1x128 (Host.scatter scatter_S128_S1_S2_0_n_0_0 (fun _ b => b) zB idxB x12) h (ix2 (0 : Fin 1) (⟨(i 1).val, hq⟩ : Fin 128)) = _
  rw [row_apply, Pad.padB_apply zB idxB hB x12 (i 1)]
  refine congrArg₂ (· + ·) (Finset.sum_congr rfl fun k _ => ?_) (congrArg x12 (funext fun a => by
    match a with
    | ⟨0, _⟩ => rfl))
  rw [Pad.padW_apply zW idxW hW x11 k (i 1)]
  refine congrArg₂ (· * ·) (congrArg _ (funext fun a => by
    match a with
    | ⟨0, _⟩ => rfl
    | ⟨1, _⟩ => rfl)) (congrArg x11 (funext fun a => by
    match a with
    | ⟨0, _⟩ => rfl
    | ⟨1, _⟩ => rfl))

end Cert.KernelIdeal.Fc

end
-- ==== Proof.Bodies.lean ====
import proofs.«113334_j17016660427423_1_alg».proof.Proof.Gen.KernelIdeal.Skeleton
import proofs.«113334_j17016660427423_1_alg».proof.Proof.Layers

/-!
# The eight bodies' arithmetic, as the two layers on a block

Five bodies are the linear layer on a block of 5000 rows (one of them followed by the positive part), three are
the combining layer.  The bodies differ only in reshapes of a block to its own shape, which are the identity.
-/

noncomputable section

namespace Cert.KernelIdeal.Bodies

open Cert.KernelIdeal Cert.KernelIdeal.Gen Idealize.ShloMosaic Idealize.ShloMosaic.ValueIdx Cert.Layers

local notation "D" => dot_S5000x128_S128x128_S5000x128_1_0_0_1_n_n

/-! ## The matrix product's dimension numbers: rows by the contracted axis, the contracted axis by columns -/

theorem contr_rank : (D).contr.rank = 1 := by decide
theorem contr_size : (D).contr.size ⟨0, by decide⟩ = 128 := by decide

theorem lhs0 (i : S5000x128.Idx) (q : (D).contr.Idx) : ((D).lhsIdx i q 0).val = (i 0).val := by
  unfold DotDims.lhsIdx
  rw [dif_neg (show ¬(0 : Fin S5000x128.rank) ∈ (D).lhsBatch by decide), dif_pos (show (0 : Fin S5000x128.rank) ∈ (D).lhsNonContracting by decide)]
  rfl
theorem lhs1 (i : S5000x128.Idx) (q : (D).contr.Idx) : ((D).lhsIdx i q 1).val = (q ⟨0, by decide⟩).val :=
  (D).lhsIdx_val_of_single rfl i q
theorem rhs0 (i : S5000x128.Idx) (q : (D).contr.Idx) : ((D).rhsIdx i q 0).val = (q ⟨0, by decide⟩).val :=
  (D).rhsIdx_val_of_single rfl i q
theorem rhs1 (i : S5000x128.Idx) (q : (D).contr.Idx) : ((D).rhsIdx i q 1).val = (i 1).val := by
  unfold DotDims.rhsIdx
  rw [dif_neg (show ¬(1 : Fin S128x128.rank) ∈ (D).rhsBatch by decide), dif_pos (show (1 : Fin S128x128.rank) ∈ (D).rhsNonContracting by decide)]
  rfl

/-! ## The linear bodies -/

theorem pay0 (x : Mat 5000 128) (w : Mat 128 128) (b : Mat 1 128) :
    k0_pay1 (F := Ideal) x w b = linArr x w b := by
  unfold k0_pay1
  simp only [shapeCast_self]
  exact linear_block D contr_rank contr_size lhs0 lhs1 rhs0 rhs1 bitsLt_bf16_f32 broadcasts_S1x128_S5000x128 x w b

theorem pay2 (x : Mat 5000 128) (w : Mat 128 128) (b : Mat 1 128) :
    k2_pay1 (F := Ideal) x w b = linArr x w b := by
  unfold k2_pay1
  simp only [shapeCast_self]
  exact linear_block D contr_rank contr_size lhs0 lhs1 rhs0 rhs1 bitsLt_bf16_f32 broadcasts_S1x128_S5000x128 x w b

theorem pay4 (x : Mat 5000 128) (w : Mat 128 128) (b : Mat 1 128) :
    k4_pay1 (F := Ideal) x w b = linArr x w b := by
  unfold k4_pay1
  simp only [shapeCast_self]
  exact linear_block D contr_rank contr_size lhs0 lhs1 rhs0 rhs1 bitsLt_bf16_f32 broadcasts_S1x128_S5000x128 x w b

/-- The fourth linear body takes the positive part of the layer. -/
theorem pay6 (x : Mat 5000 128) (w : Mat 128 128) (b : Mat 1 128) :
    k6_pay1 (F := Ideal) x w b = reluArr (linArr x w b) := by
  unfold k6_pay1
  simp only [shapeCast_self]
  rw [linear_block D contr_rank contr_size lhs0 lhs1 rhs0 rhs1 bitsLt_bf16_f32 broadcasts_S1x128_S5000x128 x w b]
  exact relu_block _

theorem pay7 (x : Mat 5000 128) (w : Mat 128 128) (b : Mat 1 128) :
    k7_pay1 (F := Ideal) x w b = linArr x w b := by
  unfold k7_pay1
  simp only [shapeCast_self]
  exact linear_block D contr_rank contr_size lhs0 lhs1 rhs0 rhs1 bitsLt_bf16_f32 broadcasts_S1x128_S5000x128 x w b

/-! ## The combining bodies -/

theorem pay1 (a h : Mat 5000 128) (s : Mat 5000 1) (b : Mat 1 128) :
    k1_pay1 (F := Ideal) a h s b = combArr a h s b := by
  unfold k1_pay1
  simp only [shapeCast_self]
  exact comb_block broadcasts_S5000x1_S5000x128 broadcasts_S1x128_S5000x128 a h s b

theorem pay3 (a h : Mat 5000 128) (s : Mat 5000 1) (b : Mat 1 128) :
    k3_pay1 (F := Ideal) a h s b = combArr a h s b := by
  unfold k3_pay1
  simp only [shapeCast_self]
  exact comb_block broadcasts_S5000x1_S5000x128 broadcasts_S1x128_S5000x128 a h s b

theorem pay5 (a h : Mat 5000 128) (s : Mat 5000 1) (b : Mat 1 128) :
    k5_pay1 (F := Ideal) a h s b = combArr a h s b := by
  unfold k5_pay1
  simp only [shapeCast_self]
  exact comb_block broadcasts_S5000x1_S5000x128 broadcasts_S1x128_S5000x128 a h s b

end Cert.KernelIdeal.Bodies

end
-- ==== Proof.Region0.lean ====
import proofs.«113334_j17016660427423_1_alg».proof.Proof.Gen.KernelIdeal.Frame
import proofs.«113334_j17016660427423_1_alg».proof.Proof.Bodies
import Idealize.ShloMosaic.Lib.Pipeline.Value

/-!
# Region 0: what its result array holds when the region is left

The grid has ten points; point `t` reads rows `5000 t … 5000 t + 4999` of the row operand, the whole weight matrix
and the whole bias row, and writes back rows `5000 t … 5000 t + 4999` of the result.  The body is the linear layer on its blocks.
An entry of the layer in row `r` depends only on row `r` of the row operand, so the block a point writes is that
block of the layer of the whole arrays; the ten blocks tile the 50000 rows, so the result array ends holding the
layer of the arrays the region found.
-/

set_option maxRecDepth 16384

noncomputable section

namespace Cert.KernelIdeal.Region0

open Cert.KernelIdeal Cert.KernelIdeal.Gen Cert.KernelIdeal.Bodies Cert.Layers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds. -/
abbrev G (c : Dev nD) : Mat 50000 128 := linArr (V c main_arg0 : Mat 50000 128) (V c main_arg3 : Mat 128 128) (V c main_v34 : Mat 1 128)

/-- The index maps, decided over the ten points: the row operand's block and the result's block are block `t` of
    their arrays, the weight matrix and the bias row are read whole. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every one of the ten row blocks is some point's. -/
theorem idx_onto : ∀ q : Fin 10, ∃ t : Fin cfg0.N, win0_3.index t = ![q.val, 0] :=
  (by decide +kernel : ∀ q : Fin 10, ∃ t : Fin grid0.N, win0_3.index t = ![q.val, 0])

/-- What point `t` writes back is block `t` of the layer of the whole arrays. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  rw [pay0]
  obtain ⟨e0, e1, e2, e3, e4, e5, e6, e7⟩ := idx_facts t
  funext j
  show linArr (R := 5000) (K := 128) (C := 128) (iblk0 V c 0 t) (iblk0 V c 1 t) (iblk0 V c 2 t) j
      = linArr (R := 50000) (K := 128) (C := 128) (V c main_arg0) (V c main_arg3) (V c main_v34) (((cfg0.win 3).blk t).view.emb j)
  have hx : ∀ k : Fin 128, (iblk0 V c 0 t : Mat 5000 128) (ix2 (j 0) k)
      = (V c main_arg0 : Mat 50000 128) (ix2 ((((cfg0.win 3).blk t).view.emb j) 0) k) := fun k => by
    show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  have hw : ∀ k : Fin 128, (iblk0 V c 1 t : Mat 128 128) (ix2 k (j 1))
      = (V c main_arg3 : Mat 128 128) (ix2 k ((((cfg0.win 3).blk t).view.emb j) 1)) := fun k => by
    show V c main_arg3 (((cfg0.win 1).blk t).view.emb (ix2 k (j 1))) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have hb : (iblk0 V c 2 t : Mat 1 128) (ix2 (0 : Fin 1) (j 1))
      = (V c main_v34 : Mat 1 128) (ix2 (0 : Fin 1) ((((cfg0.win 3).blk t).view.emb j) 1)) := by
    show V c main_v34 (((cfg0.win 2).blk t).view.emb (ix2 (0 : Fin 1) (j 1))) = _
    refine congrArg (V c main_v34) (funext fun a => Fin.ext ?_)
    match a with
    | ⟨0, _⟩ => show win0_2.index t (0 : Fin 2) * 1 + 1 * 0 = 0; omega
    | ⟨1, _⟩ => show win0_2.index t (1 : Fin 2) * 128 + 1 * (j 1).val = win0_3.index t (1 : Fin 2) * 128 + 1 * (j 1).val; omega
  unfold linArr
  rw [hb]
  exact congrArg (· + _) (Finset.sum_congr rfl fun k _ => by rw [hx k, hw k])

/-- An index of the result array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v35).slice (win0_3.rect t)).set ↔ _
  rw [View.set_slice_whole, Rect.mem_set_unit]
  exact Iff.rfl

/-- The ten blocks tile the 50000 rows: row `r` is in the block of the point whose block index is `r / 5000`. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array when the region is left: the layer of the arrays the region found. -/
theorem final (c : Dev nD) : (dat0 V c).arrAt 3 cfg0.N = G V c :=
  (dat0 V c).arrAt_eq_of_cover 3 (G V c) (fun t _ => flushed_eq V c t) cover

end Cert.KernelIdeal.Region0

end
-- ==== Proof.Region1.lean ====
import proofs.«113334_j17016660427423_1_alg».proof.Proof.Gen.KernelIdeal.Frame
import proofs.«113334_j17016660427423_1_alg».proof.Proof.Bodies
import Idealize.ShloMosaic.Lib.Pipeline.Value

/-!
# Region 1: what its result array holds when the region is left

The grid has ten points; point `t` reads rows `5000 t … 5000 t + 4999` of the aggregate, of the layer's linear
part and of the one-column factor, and the whole bias row, and writes back rows `5000 t … 5000 t + 4999` of the
result.  The body is the combining layer on its blocks, and an entry of that layer in row `r` depends only on
row `r` of the three row operands, so the block a point writes is that block of the layer of the whole arrays;
the ten blocks tile the 50000 rows, so the result array ends holding the layer of the arrays the region found.
-/

set_option maxRecDepth 16384

noncomputable section

namespace Cert.KernelIdeal.Region1

open Cert.KernelIdeal Cert.KernelIdeal.Gen Cert.KernelIdeal.Bodies Cert.Layers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds. -/
abbrev G (c : Dev nD) : Mat 50000 128 :=
  combArr (V c main_v53 : Mat 50000 128) (V c main_v35 : Mat 50000 128) (V c main_v32 : Mat 50000 1) (V c main_v54 : Mat 1 128)

/-- The index maps, decided over the ten points: the three row operands' blocks and the result's block are block
    `t` of their arrays, the bias row is read whole. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 :=
  (by decide +kernel : ∀ t : Fin grid1.N, _)

/-- Every one of the ten row blocks is some point's. -/
theorem idx_onto : ∀ q : Fin 10, ∃ t : Fin cfg1.N, win1_4.index t = ![q.val, 0] :=
  (by decide +kernel : ∀ q : Fin 10, ∃ t : Fin grid1.N, win1_4.index t = ![q.val, 0])

/-- What point `t` writes back is block `t` of the layer of the whole arrays. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  rw [pay1]
  obtain ⟨e0, e1, e2, e3, e4, e5, e6, e7, e8⟩ := idx_facts t
  funext j
  show combArr (R := 5000) (C := 128) (iblk1 V c 0 t) (iblk1 V c 1 t) (iblk1 V c 2 t) (iblk1 V c 3 t) j
      = combArr (R := 50000) (C := 128) (V c main_v53) (V c main_v35) (V c main_v32) (V c main_v54) (((cfg1.win 4).blk t).view.emb j)
  have ha : (iblk1 V c 0 t : Mat 5000 128) j = (V c main_v53 : Mat 50000 128) (((cfg1.win 4).blk t).view.emb j) := by
    show V c main_v53 (((cfg1.win 0).blk t).view.emb j) = _
    refine congrArg (V c main_v53) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have hh : (iblk1 V c 1 t : Mat 5000 128) j = (V c main_v35 : Mat 50000 128) (((cfg1.win 4).blk t).view.emb j) := by
    show V c main_v35 (((cfg1.win 1).blk t).view.emb j) = _
    refine congrArg (V c main_v35) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  have hs : (iblk1 V c 2 t : Mat 5000 1) (ix2 (j 0) (0 : Fin 1))
      = (V c main_v32 : Mat 50000 1) (ix2 ((((cfg1.win 4).blk t).view.emb j) 0) (0 : Fin 1)) := by
    show V c main_v32 (((cfg1.win 2).blk t).view.emb (ix2 (j 0) (0 : Fin 1))) = _
    refine congrArg (V c main_v32) (funext fun a => Fin.ext ?_)
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have hb : (iblk1 V c 3 t : Mat 1 128) (ix2 (0 : Fin 1) (j 1))
      = (V c main_v54 : Mat 1 128) (ix2 (0 : Fin 1) ((((cfg1.win 4).blk t).view.emb j) 1)) := by
    show V c main_v54 (((cfg1.win 3).blk t).view.emb (ix2 (0 : Fin 1) (j 1))) = _
    refine congrArg (V c main_v54) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  unfold combArr
  rw [ha, hh, hs, hb]

/-- An index of the result array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v55).slice (win1_4.rect t)).set ↔ _
  rw [View.set_slice_whole, Rect.mem_set_unit]
  exact Iff.rfl

/-- The ten blocks tile the 50000 rows: row `r` is in the block of the point whose block index is `r / 5000`. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The result array when the region is left: the layer of the arrays the region found. -/
theorem final (c : Dev nD) : (dat1 V c).arrAt 4 cfg1.N = G V c :=
  (dat1 V c).arrAt_eq_of_cover 4 (G V c) (fun t _ => flushed_eq V c t) cover

end Cert.KernelIdeal.Region1

end
-- ==== Proof.Region2.lean ====
import proofs.«113334_j17016660427423_1_alg».proof.Proof.Gen.KernelIdeal.Frame
import proofs.«113334_j17016660427423_1_alg».proof.Proof.Bodies
import Idealize.ShloMosaic.Lib.Pipeline.Value

/-!
# Region 2: what its result array holds when the region is left

The grid has ten points; point `t` reads rows `5000 t … 5000 t + 4999` of the row operand, the whole weight matrix
and the whole bias row, and writes back rows `5000 t … 5000 t + 4999` of the result.  The body is the linear layer on its blocks.
An entry of the layer in row `r` depends only on row `r` of the row operand, so the block a point writes is that
block of the layer of the whole arrays; the ten blocks tile the 50000 rows, so the result array ends holding the
layer of the arrays the region found.
-/

set_option maxRecDepth 16384

noncomputable section

namespace Cert.KernelIdeal.Region2

open Cert.KernelIdeal Cert.KernelIdeal.Gen Cert.KernelIdeal.Bodies Cert.Layers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds. -/
abbrev G (c : Dev nD) : Mat 50000 128 := linArr (V c main_v55 : Mat 50000 128) (V c main_arg5 : Mat 128 128) (V c main_v57 : Mat 1 128)

/-- The index maps, decided over the ten points: the row operand's block and the result's block are block `t` of
    their arrays, the weight matrix and the bias row are read whole. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 9 :=
  (by decide +kernel : ∀ t : Fin grid2.N, _)

/-- Every one of the ten row blocks is some point's. -/
theorem idx_onto : ∀ q : Fin 10, ∃ t : Fin cfg2.N, win2_3.index t = ![q.val, 0] :=
  (by decide +kernel : ∀ q : Fin 10, ∃ t : Fin grid2.N, win2_3.index t = ![q.val, 0])

/-- What point `t` writes back is block `t` of the layer of the whole arrays. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S1x128) hz]
  rw [pay2]
  obtain ⟨e0, e1, e2, e3, e4, e5, e6, e7⟩ := idx_facts t
  funext j
  show linArr (R := 5000) (K := 128) (C := 128) (iblk2 V c 0 t) (iblk2 V c 1 t) (iblk2 V c 2 t) j
      = linArr (R := 50000) (K := 128) (C := 128) (V c main_v55) (V c main_arg5) (V c main_v57) (((cfg2.win 3).blk t).view.emb j)
  have hx : ∀ k : Fin 128, (iblk2 V c 0 t : Mat 5000 128) (ix2 (j 0) k)
      = (V c main_v55 : Mat 50000 128) (ix2 ((((cfg2.win 3).blk t).view.emb j) 0) k) := fun k => by
    show V c main_v55 (((cfg2.win 0).blk t).view.emb (ix2 (j 0) k)) = _
    refine congrArg (V c main_v55) (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  have hw : ∀ k : Fin 128, (iblk2 V c 1 t : Mat 128 128) (ix2 k (j 1))
      = (V c main_arg5 : Mat 128 128) (ix2 k ((((cfg2.win 3).blk t).view.emb j) 1)) := fun k => by
    show V c main_arg5 (((cfg2.win 1).blk t).view.emb (ix2 k (j 1))) = _
    refine congrArg (V c main_arg5) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_3.index t (1 : Fin 2) * 128 + 1 * (j 1).val; omega
  have hb : (iblk2 V c 2 t : Mat 1 128) (ix2 (0 : Fin 1) (j 1))
      = (V c main_v57 : Mat 1 128) (ix2 (0 : Fin 1) ((((cfg2.win 3).blk t).view.emb j) 1)) := by
    show V c main_v57 (((cfg2.win 2).blk t).view.emb (ix2 (0 : Fin 1) (j 1))) = _
    refine congrArg (V c main_v57) (funext fun a => Fin.ext ?_)
    match a with
    | ⟨0, _⟩ => show win2_2.index t (0 : Fin 2) * 1 + 1 * 0 = 0; omega
    | ⟨1, _⟩ => show win2_2.index t (1 : Fin 2) * 128 + 1 * (j 1).val = win2_3.index t (1 : Fin 2) * 128 + 1 * (j 1).val; omega
  unfold linArr
  rw [hb]
  exact congrArg (· + _) (Finset.sum_congr rfl fun k _ => by rw [hx k, hw k])

/-- An index of the result array is in point `t`'s block iff each coordinate is in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v58).slice (win2_3.rect t)).set ↔ _
  rw [View.set_slice_whole, Rect.mem_set_unit]
  exact Iff.rfl

/-- The ten blocks tile the 50000 rows: row `r` is in the block of the point whose block index is `r / 5000`. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The result array when the region is left: the layer of the arrays the region found. -/
theorem final (c : Dev nD) : (dat2 V c).arrAt 3 cfg2.N = G V c :=
  (dat2 V c).arrAt_eq_of_cover 3 (G V c) (fun t _ => flushed_eq V c t) cover

end Cert.KernelIdeal.Region2

end
-- ==== Proof.Region3.lean ====
import proofs.«113334_j17016660427423_1_alg».proof.Proof.Gen.KernelIdeal.Frame
import proofs.«113334_j17016660427423_1_alg».proof.Proof.Bodies
import Idealize.ShloMosaic.Lib.Pipeline.Value

/-!
# Region 3: what its result array holds when the region is left

The grid has ten points; point `t` reads rows `5000 t … 5000 t + 4999` of the aggregate, of the layer's linear
part and of the one-column factor, and the whole bias row, and writes back rows `5000 t … 5000 t + 4999` of the
result.  The body is the combining layer on its blocks, and an entry of that layer in row `r` depends only on
row `r` of the three row operands, so the block a point writes is that block of the layer of the whole arrays;
the ten blocks tile the 50000 rows, so the result array ends holding the layer of the arrays the region found.
-/

set_option maxRecDepth 16384

noncomputable section

namespace Cert.KernelIdeal.Region3

open Cert.KernelIdeal Cert.KernelIdeal.Gen Cert.KernelIdeal.Bodies Cert.Layers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds. -/
abbrev G (c : Dev nD) : Mat 50000 128 :=
  combArr (V c main_v76 : Mat 50000 128) (V c main_v58 : Mat 50000 128) (V c main_v32 : Mat 50000 1) (V c main_v77 : Mat 1 128)

/-- The index maps, decided over the ten points: the three row operands' blocks and the result's block are block
    `t` of their arrays, the bias row is read whole. -/
theorem idx_facts : ∀ t : Fin cfg3.N, win3_0.index t (0 : Fin 2) = win3_4.index t (0 : Fin 2)
    ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 :=
  (by decide +kernel : ∀ t : Fin grid3.N, _)

/-- Every one of the ten row blocks is some point's. -/
theorem idx_onto : ∀ q : Fin 10, ∃ t : Fin cfg3.N, win3_4.index t = ![q.val, 0] :=
  (by decide +kernel : ∀ q : Fin 10, ∃ t : Fin grid3.N, win3_4.index t = ![q.val, 0])

/-- What point `t` writes back is block `t` of the layer of the whole arrays. -/
theorem flushed_eq (c : Dev nD) (t : Fin cfg3.N) :
    (dat3 V c).flushed 4 t = ((cfg3.win 4).blk t).view.read (Elt Ideal) (G V c) := by
  show (cfg3.win 4).cut (grid3.coords t) ((dat3 V c).after 4 t) = _
  rw [after3_4]
  unfold out3_4
  rw [View.canon_unit_zero hz]
  simp only [View.ld_unit_zero (S := S5000x128) hz, View.ld_unit_zero (S := S5000x1) hz, View.ld_unit_zero (S := S1x128) hz]
  rw [pay3]
  obtain ⟨e0, e1, e2, e3, e4, e5, e6, e7, e8⟩ := idx_facts t
  funext j
  show combArr (R := 5000) (C := 128) (iblk3 V c 0 t) (iblk3 V c 1 t) (iblk3 V c 2 t) (iblk3 V c 3 t) j
      = combArr (R := 50000) (C := 128) (V c main_v76) (V c main_v58) (V c main_v32) (V c main_v77) (((cfg3.win 4).blk t).view.emb j)
  have ha : (iblk3 V c 0 t : Mat 5000 128) j = (V c main_v76 : Mat 50000 128) (((cfg3.win 4).blk t).view.emb j) := by
    show V c main_v76 (((cfg3.win 0).blk t).view.emb j) = _
    refine congrArg (V c main_v76) (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  have hh : (iblk3 V c 1 t : Mat 5000 128) j = (V c main_v58 : Mat 50000 128) (((cfg3.win 4).blk t).view.emb j) := by
    show V c main_v58 (((cfg3.win 1).blk t).view.emb j) = _
    refine congrArg (V c main_v58) (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  have hs : (iblk3 V c 2 t : Mat 5000 1) (ix2 (j 0) (0 : Fin 1))
      = (V c main_v32 : Mat 50000 1) (ix2 ((((cfg3.win 4).blk t).view.emb j) 0) (0 : Fin 1)) := by
    show V c main_v32 (((cfg3.win 2).blk t).view.emb (ix2 (j 0) (0 : Fin 1))) = _
    refine congrArg (V c main_v32) (funext fun a => Fin.ext ?_)
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  have hb : (iblk3 V c 3 t : Mat 1 128) (ix2 (0 : Fin 1) (j 1))
      = (V c main_v77 : Mat 1 128) (ix2 (0 : Fin 1) ((((cfg3.win 4).blk t).view.emb j) 1)) := by
    show V c main_v77 (((cfg3.win 3).blk t).view.emb (ix2 (0 : Fin 1) (j 1))) = _
    refine congrArg (V c main_v77) (funext fun a => Fin.ext ?_)
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega
  unfold combArr
  rw [ha, hh, hs, hb]

/-- An index of the result array is in point `t`'s block iff each coordinate is in the block's range on its axis. -/
theorem mem_blk (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v78).slice (win3_4.rect t)).set ↔ _
  rw [View.set_slice_whole, Rect.mem_set_unit]
  exact Iff.rfl

/-- The ten blocks tile the 50000 rows: row `r` is in the block of the point whose block index is `r / 5000`. -/
theorem cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := idx_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The result array when the region is left: the layer of the arrays the region found. -/
theorem final (c : Dev nD) : (dat3 V c).arrAt 4 cfg3.N = G V c :=
  (dat3 V c).arrAt_eq_of_cover 4 (G V c) (fun t _ => flushed_eq V c t) cover

end Cert.KernelIdeal.Region3

end
-- ==== Proof.Region4.lean ====
import proofs.«113334_j17016660427423_1_alg».proof.Proof.Gen.KernelIdeal.Frame
import proofs.«113334_j17016660427423_1_alg».proof.Proof.Bodies
import Idealize.ShloMosaic.Lib.Pipeline.Value

/-!
# Region 4: what its result array holds when the region is left

The grid has ten points; point `t` reads rows `5000 t … 5000 t + 4999` of the row operand, the whole weight matrix
and the whole bias row, and writes back rows `5000 t … 5000 t + 4999` of the result.  The body is the linear layer on its blocks.
An entry of the layer in row `r` depends only on row `r` of the row operand, so the block a point writes is that
block of the layer of the whole arrays; the ten blocks tile the 50000 rows, so the result array ends holding the
layer of the arrays the region found.
-/

set_option maxRecDepth 16384

noncomputable section

namespace Cert.KernelIdeal.Region4

open Cert.KernelIdeal Cert.KernelIdeal.Gen Cert.KernelIdeal.Bodies Cert.Layers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds. -/
abbrev G (c : Dev nD) : Mat 50000 128 := linArr (V c main_v78 : Mat 50000 128) (V c main_arg7 : Mat 128 128) (V c main_v80 : Mat 1 128)

/-- The index maps, decided over the ten points: the row operand's block and the result's block are block `t` of
    their arrays, the weight matrix and the bias row are read whole. -/
theorem idx_facts : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 9 :=
  (by decide +kernel : ∀ t : Fin grid4.N, _)

/-- Every one of the ten row blocks is some point's. -/
theorem idx_onto : ∀ q : Fin 10, ∃ t : Fin cfg4.N, win4_3.index t = ![q.val, 0] :=
  (by decide +kernel : ∀ q : Fin 10, ∃ t : Fin grid4.N, win4_3.index t = ![q.val, 0])

/-- What point `t` writes back is block `t` of the layer of the whole arrays. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x128) hz, View.ld_unit_zero (S := S1x128) hz]
  rw [pay4]
  obtain ⟨e0, e1, e2, e3, e4, e5, e6, e7⟩ := idx_facts t
  funext j
  show linArr (R := 5000) (K := 128) (C := 128) (iblk4 V c 0 t) (iblk4 V c 1 t) (iblk4 V c 2 t) j
      = linArr (R := 50000) (K := 128) (C := 128) (V c main_v78) (V c main_arg7) (V c main_v80) (((cfg4.win 3).blk t).view.emb j)
  have hx : ∀ k : Fin 128, (iblk4 V c 0 t : Mat 5000 128) (ix2 (j 0) k)
      = (V c main_v78 : Mat 50000 128) (ix2 ((((cfg4.win 3).blk t).view.emb j) 0) k) := fun k => by
    show V c main_v78 (((cfg4.win 0).blk t).view.emb (ix2 (j 0) k)) = _
    refine congrArg (V c main_v78) (funext fun a => Fin.ext ?_)
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 128 + 1 * k.val = k.val; omega
  have hw : ∀ k : Fin 128, (iblk4 V c 1 t : Mat 128 128) (ix2 k (j 1))
      = (V c main_arg7 : Mat 128 128) (ix2 k ((((cfg4.win 3).blk t).view.emb j) 1)) := fun k => by
    show V c main_arg7 (((cfg4.win 1).blk t).view.emb (ix2 k (j 1))) = _
    refine congrArg (V c main_arg7) (funext fun a => Fin.ext ?_)
    match a with
    | ⟨0, _⟩ => show win4_1.index t (0 : Fin 2) * 128 + 1 * k.val = k.val; omega
    | ⟨1, _⟩ => show win4_1.index t (1 : Fin 2) * 128 + 1 * (j 1).val = win4_3.index t (1 : Fin 2) * 128 + 1 * (j 1).val; omega
  have hb : (iblk4 V c 2 t : Mat 1 128) (ix2 (0 : Fin 1) (j 1))
      = (V c main_v80 : Mat 1 128) (ix2 (0 : Fin 1) ((((cfg4.win 3).blk t).view.emb j) 1)) := by
    show V c main_v80 (((cfg4.win 2).blk t).view.emb (ix2 (0 : Fin 1) (j 1))) = _
    refine congrArg (V c main_v80) (funext fun a => Fin.ext ?_)
    match a with
    | ⟨0, _⟩ => show win4_2.index t (0 : Fin 2) * 1 + 1 * 0 = 0; omega
    | ⟨1, _⟩ => show win4_2.index t (1 : Fin 2) * 128 + 1 * (j 1).val = win4_3.index t (1 : Fin 2) * 128 + 1 * (j 1).val; omega
  unfold linArr
  rw [hb]
  exact congrArg (· + _) (Finset.sum_congr rfl fun k _ => by rw [hx k, hw k])

/-- An index of the result array is in point `t`'s block iff each coordinate is in the block's range on its axis. -/
theorem mem_blk (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v81).slice (win4_3.rect t)).set ↔ _
  rw [View.set_slice_whole, Rect.mem_set_unit]
  exact Iff.rfl

/-- The ten blocks tile the 50000 rows: row `r` is in the block of the point whose block index is `r / 5000`. -/
theorem cover (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The result array when the region is left: the layer of the arrays the region found. -/
theorem final (c : Dev nD) : (dat4 V c).arrAt 3 cfg4.N = G V c :=
  (dat4 V c).arrAt_eq_of_cover 3 (G V c) (fun t _ => flushed_eq V c t) cover

end Cert.KernelIdeal.Region4

end
-- ==== Proof.Region5.lean ====
import proofs.«113334_j17016660427423_1_alg».proof.Proof.Gen.KernelIdeal.Frame
import proofs.«113334_j17016660427423_1_alg».proof.Proof.Bodies
import Idealize.ShloMosaic.Lib.Pipeline.Value

/-!
# Region 5: what its result array holds when the region is left

The grid has ten points; point `t` reads rows `5000 t … 5000 t + 4999` of the aggregate, of the layer's linear
part and of the one-column factor, and the whole bias row, and writes back rows `5000 t … 5000 t + 4999` of the
result.  The body is the combining layer on its blocks, and an entry of that layer in row `r` depends only on
row `r` of the three row operands, so the block a point writes is that block of the layer of the whole arrays;
the ten blocks tile the 50000 rows, so the result array ends holding the layer of the arrays the region found.
-/

set_option maxRecDepth 16384

noncomputable section

namespace Cert.KernelIdeal.Region5

open Cert.KernelIdeal Cert.KernelIdeal.Gen Cert.KernelIdeal.Bodies Cert.Layers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds. -/
abbrev G (c : Dev nD) : Mat 50000 128 :=
  combArr (V c main_v99 : Mat 50000 128) (V c main_v81 : Mat 50000 128) (V c main_v32 : Mat 50000 1) (V c main_v100 : Mat 1 128)

/-- The index maps, decided over the ten points: the three row operands' blocks and the result's block are block
    `t` of their arrays, the bias row is read whole. -/
theorem idx_facts : ∀ t : Fin cfg5.N, win5_0.index t (0 : Fin 2) = win5_4.index t (0 : Fin 2)
    ∧ win5_0.index t (1 : Fin 2) = 0
    ∧ win5_1.index t (0 : Fin 2) = win5_4.index t (0 : Fin 2) ∧ win5_1.index t (1 : Fin 2) = 0
    ∧ win5_2.index t (0 : Fin 2) = win5_4.index t (0 : Fin 2) ∧ win5_2.index t (1 : Fin 2) = 0
    ∧ win5_3.index t (0 : Fin 2) = 0 ∧ win5_3.index t (1 : Fin 2) = 0
    ∧ win5_4.index t (1 : Fin 2) = 0 :=
  (by decide +kernel : ∀ t : Fin grid5.N, _)

/-- Every one of the ten row blocks is some point's. -/
theorem idx_onto : ∀ q : Fin 10, ∃ t : Fin cfg5.N, win5_4.index t = ![q.val, 0] :=
  (by decide +kernel : ∀ q : Fin 10, ∃ t : Fin grid5.N, win5_4.index t = ![q.val, 0])

/-- What point `t` writes back is block `t` of the layer of the whole arrays. -/
theorem flushed_eq (c : Dev nD) (t : Fin cfg5.N) :
    (dat5 V c).flushed 4 t = ((cfg5.win 4).blk t).view.read (Elt Ideal) (G V c) := by
  show (cfg5.win 4).cut (grid5.coords t) ((dat5 V c).after 4 t) = _
  rw [after5_4]
  unfold out5_4
  rw [View.canon_unit_zero hz]
  simp only [View.ld_unit_zero (S := S5000x128) hz, View.ld_unit_zero (S := S5000x1) hz, View.ld_unit_zero (S := S1x128) hz]
  rw [pay5]
  obtain ⟨e0, e1, e2, e3, e4, e5, e6, e7, e8⟩ := idx_facts t
  funext j
  show combArr (R := 5000) (C := 128) (iblk5 V c 0 t) (iblk5 V c 1 t) (iblk5 V c 2 t) (iblk5 V c 3 t) j
      = combArr (R := 50000) (C := 128) (V c main_v99) (V c main_v81) (V c main_v32) (V c main_v100) (((cfg5.win 4).blk t).view.emb j)
  have ha : (iblk5 V c 0 t : Mat 5000 128) j = (V c main_v99 : Mat 50000 128) (((cfg5.win 4).blk t).view.emb j) := by
    show V c main_v99 (((cfg5.win 0).blk t).view.emb j) = _
    refine congrArg (V c main_v99) (funext fun a => Fin.ext ?_)
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 128 + 1 * (j 1).val = win5_4.index t (1 : Fin 2) * 128 + 1 * (j 1).val; omega
  have hh : (iblk5 V c 1 t : Mat 5000 128) j = (V c main_v81 : Mat 50000 128) (((cfg5.win 4).blk t).view.emb j) := by
    show V c main_v81 (((cfg5.win 1).blk t).view.emb j) = _
    refine congrArg (V c main_v81) (funext fun a => Fin.ext ?_)
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 128 + 1 * (j 1).val = win5_4.index t (1 : Fin 2) * 128 + 1 * (j 1).val; omega
  have hs : (iblk5 V c 2 t : Mat 5000 1) (ix2 (j 0) (0 : Fin 1))
      = (V c main_v32 : Mat 50000 1) (ix2 ((((cfg5.win 4).blk t).view.emb j) 0) (0 : Fin 1)) := by
    show V c main_v32 (((cfg5.win 2).blk t).view.emb (ix2 (j 0) (0 : Fin 1))) = _
    refine congrArg (V c main_v32) (funext fun a => Fin.ext ?_)
    match a with
    | ⟨0, _⟩ => show win5_2.index t (0 : Fin 2) * 5000 + 1 * (j 0).val = win5_4.index t (0 : Fin 2) * 5000 + 1 * (j 0).val; omega
    | ⟨1, _⟩ => show win5_2.index t (1 : Fin 2) * 1 + 1 * 0 = 0; omega
  have hb : (iblk5 V c 3 t : Mat 1 128) (ix2 (0 : Fin 1) (j 1))
      = (V c main_v100 : Mat 1 128) (ix2 (0 : Fin 1) ((((cfg5.win 4).blk t).view.emb j) 1)) := by
    show V c main_v100 (((cfg5.win 3).blk t).view.emb (ix2 (0 : Fin 1) (j 1))) = _
    refine congrArg (V c main_v100) (funext fun a => Fin.ext ?_)
    match a with
    | ⟨0, _⟩ => show win5_3.index t (0 : Fin 2) * 1 + 1 * 0 = 0; omega
    | ⟨1, _⟩ => show win5_3.index t (1 : Fin 2) * 128 + 1 * (j 1).val = win5_4.index t (1 : Fin 2) * 128 + 1 * (j 1).val; omega
  unfold combArr
  rw [ha, hh, hs, hb]

/-- An index of the result array is in point `t`'s block iff each coordinate is in the block's range on its axis. -/
theorem mem_blk (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v101).slice (win5_4.rect t)).set ↔ _
  rw [View.set_slice_whole, Rect.mem_set_unit]
  exact Iff.rfl

/-- The ten blocks tile the 50000 rows: row `r` is in the block of the point whose block index is `r / 5000`. -/
theorem cover (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  obtain ⟨t, ht⟩ := idx_onto ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_blk]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

/-- The result array when the region is left: the layer of the arrays the region found. -/
theorem final (c : Dev nD) : (dat5 V c).arrAt 4 cfg5.N = G V c :=
  (dat5 V c).arrAt_eq_of_cover 4 (G V c) (fun t _ => flushed_eq V c t) cover

end Cert.KernelIdeal.Region5

end
-- ==== Proof.Region6.lean ====
import proofs.«113334_j17016660427423_1_alg».proof.Proof.Gen.KernelIdeal.Frame
import proofs.«113334_j17016660427423_1_alg».proof.Proof.Bodies
import Idealize.ShloMosaic.Lib.Pipeline.Value

/-!
# Region 6: what its result array holds when the region is left

The grid has ten points; point `t` reads rows `5000 t … 5000 t + 4999` of the row operand, the whole weight matrix
and the whole bias row, and writes back rows `5000 t … 5000 t + 4999` of the result.  The body is the linear layer on its blocks followed by the positive part.
An entry of the layer in row `r` depends only on row `r` of the row operand, so the block a point writes is that
block of the layer of the whole arrays; the ten blocks tile the 50000 rows, so the result array ends holding the
layer of the arrays the region found.
-/

set_option maxRecDepth 16384

noncomputable section

namespace Cert.KernelIdeal.Region6

open Cert.KernelIdeal Cert.KernelIdeal.Gen Cert.KernelIdeal.Bodies Cert.Layers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds. -/
abbrev G (c : Dev nD) : Mat 50000 128 := reluArr (linArr (V c main_v101 : Mat 50000 128) (V c main_arg9 : Mat 128 128) (V c main_v102 : Mat 1 128))

/-- The index maps, decided over the ten points: the row operand's block and the result's block are block `t` of
    their arrays, the weight matrix and the bias row are read whole. -/
theorem idx_facts : ∀ t : Fin cfg6.N, win6_0.index t (0 : Fin 2) = win6_3.index t (0 : Fin 2)
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (1 : Fin 2) = 0 ∧ win6_3.index t (0 : Fin 2) ≤ 9 :=
  (by decide +kernel : ∀ t : Fin grid6.N, _)

/-- Every one of the ten row blocks is some point's. -/
theorem idx_onto : ∀ q : Fin 10, ∃ t : Fin cfg6.N, win6_3.index t = ![q.val, 0] :=
  (by decide +kernel : ∀ q : Fin 10, ∃ t : Fin grid6.N, win6_3.index t = ![q.val, 0])

/-- What point `t` writes back is block `t` of the layer of the whole arrays. -/
theorem flushed_eq (c : Dev nD) (t : Fin cfg6.N) :
    (dat6 V c).flushed 3 t = ((cfg6.win 3).blk t).view.read (Elt Ideal) (G V c) := by
  show (cfg6.win 3).cut (grid6.coords t) ((dat6 V c).after 3 t) = _
  rw [after6_3]
  unfold out6_3
  rw [View.canon_unit_zero hz]
  simp only [View.ld_unit_zero (S := S5000x128) hz, View.ld_unit_zero (S := S128x128) hz, View.ld_unit_zero (S := S1x128) hz]
  rw [pay6]
  obtain ⟨e0, e1, e2, e3, e4, e5, e6, e7⟩ := idx_facts t
  funext j
  show reluArr (linArr (R := 5000) (K := 128) (C := 128) (iblk6 V c 0 t) (iblk6 V c 1 t) (iblk6 V c 2 t)) j
      = reluArr (linArr (R := 50000) (K := 128) (C := 128) (V c main_v101) (V c main_arg9) (V c main_v102)) (((cfg6.win 3).blk t).view.emb j)
  have hx : ∀ k : Fin 128, (iblk6 V c 0 t : Mat 5000 128) (ix2 (j 0) k)
      = (V c main_v101 : Mat 50000 128) (ix2 ((((cfg6.win 3).blk t).view.emb j) 0) k) := fun k => by
    show V c main_v101 (((cfg6.win 0).blk t).view.emb (ix2 (j 0) k)) = _
    refine congrArg (V c main_v101) (funext fun a => Fin.ext ?_)
    match a with
    | ⟨0, _⟩ => show win6_0.index t (0 : Fin 2) * 5000 + 1 * (j 0).val = win6_3.index t (0 : Fin 2) * 5000 + 1 * (j 0).val; omega
    | ⟨1, _⟩ => show win6_0.index t (1 : Fin 2) * 128 + 1 * k.val = k.val; omega
  have hw : ∀ k : Fin 128, (iblk6 V c 1 t : Mat 128 128) (ix2 k (j 1))
      = (V c main_arg9 : Mat 128 128) (ix2 k ((((cfg6.win 3).blk t).view.emb j) 1)) := fun k => by
    show V c main_arg9 (((cfg6.win 1).blk t).view.emb (ix2 k (j 1))) = _
    refine congrArg (V c main_arg9) (funext fun a => Fin.ext ?_)
    match a with
    | ⟨0, _⟩ => show win6_1.index t (0 : Fin 2) * 128 + 1 * k.val = k.val; omega
    | ⟨1, _⟩ => show win6_1.index t (1 : Fin 2) * 128 + 1 * (j 1).val = win6_3.index t (1 : Fin 2) * 128 + 1 * (j 1).val; omega
  have hb : (iblk6 V c 2 t : Mat 1 128) (ix2 (0 : Fin 1) (j 1))
      = (V c main_v102 : Mat 1 128) (ix2 (0 : Fin 1) ((((cfg6.win 3).blk t).view.emb j) 1)) := by
    show V c main_v102 (((cfg6.win 2).blk t).view.emb (ix2 (0 : Fin 1) (j 1))) = _
    refine congrArg (V c main_v102) (funext fun a => Fin.ext ?_)
    match a with
    | ⟨0, _⟩ => show win6_2.index t (0 : Fin 2) * 1 + 1 * 0 = 0; omega
    | ⟨1, _⟩ => show win6_2.index t (1 : Fin 2) * 128 + 1 * (j 1).val = win6_3.index t (1 : Fin 2) * 128 + 1 * (j 1).val; omega
  unfold reluArr linArr
  rw [hb]
  exact congrArg (fun v => max (v + _) 0) (Finset.sum_congr rfl fun k _ => by rw [hx k, hw k])

/-- An index of the result array is in point `t`'s block iff each coordinate is in the block's range on its axis. -/
theorem mem_blk (t : Fin cfg6.N) (i : S50000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v103).slice (win6_3.rect t)).set ↔ _
  rw [View.set_slice_whole, Rect.mem_set_unit]
  exact Iff.rfl

/-- The ten blocks tile the 50000 rows: row `r` is in the block of the point whose block index is `r / 5000`. -/
theorem cover (i : S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  obtain ⟨t, ht⟩ := idx_onto ⟨(i 0).val / 5000, by omega⟩
  have q0 : win6_3.index t (0 : Fin 2) = (i 0).val / 5000 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 128 ≤ (i 1).val ∧ (i 1).val < win6_3.index t (1 : Fin 2) * 128 + 128; omega

/-- The result array when the region is left: the layer of the arrays the region found. -/
theorem final (c : Dev nD) : (dat6 V c).arrAt 3 cfg6.N = G V c :=
  (dat6 V c).arrAt_eq_of_cover 3 (G V c) (fun t _ => flushed_eq V c t) cover

end Cert.KernelIdeal.Region6

end
-- ==== Proof.Region7.lean ====
import proofs.«113334_j17016660427423_1_alg».proof.Proof.Gen.KernelIdeal.Frame
import proofs.«113334_j17016660427423_1_alg».proof.Proof.Bodies
import Idealize.ShloMosaic.Lib.Pipeline.Value

/-!
# Region 7: what its result array holds when the region is left

The grid has ten points; point `t` reads rows `5000 t … 5000 t + 4999` of the row operand, the whole weight matrix
and the whole bias row, and writes back rows `5000 t … 5000 t + 4999` of the result.  The body is the linear layer on its blocks.
An entry of the layer in row `r` depends only on row `r` of the row operand, so the block a point writes is that
block of the layer of the whole arrays; the ten blocks tile the 50000 rows, so the result array ends holding the
layer of the arrays the region found.
-/

set_option maxRecDepth 16384

noncomputable section

namespace Cert.KernelIdeal.Region7

open Cert.KernelIdeal Cert.KernelIdeal.Gen Cert.KernelIdeal.Bodies Cert.Layers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region finds. -/
abbrev G (c : Dev nD) : Mat 50000 128 := linArr (V c main_v103 : Mat 50000 128) (V c main_v106 : Mat 128 128) (V c main_v110 : Mat 1 128)

/-- The index maps, decided over the ten points: the row operand's block and the result's block are block `t` of
    their arrays, the weight matrix and the bias row are read whole. -/
theorem idx_facts : ∀ t : Fin cfg7.N, win7_0.index t (0 : Fin 2) = win7_3.index t (0 : Fin 2)
    ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (1 : Fin 2) = 0 ∧ win7_3.index t (0 : Fin 2) ≤ 9 :=
  (by decide +kernel : ∀ t : Fin grid7.N, _)

/-- Every one of the ten row blocks is some point's. -/
theorem idx_onto : ∀ q : Fin 10, ∃ t : Fin cfg7.N, win7_3.index t = ![q.val, 0] :=
  (by decide +kernel : ∀ q : Fin 10, ∃ t : Fin grid7.N, win7_3.index t = ![q.val, 0])

/-- What point `t` writes back is block `t` of the layer of the whole arrays. -/
theorem flushed_eq (c : Dev nD) (t : Fin cfg7.N) :
    (dat7 V c).flushed 3 t = ((cfg7.win 3).blk t).view.read (Elt Ideal) (G V c) := by
  show (cfg7.win 3).cut (grid7.coords t) ((dat7 V c).after 3 t) = _
  rw [after7_3]
  unfold out7_3
  rw [View.canon_unit_zero hz]
  simp only [View.ld_unit_zero (S := S5000x128) hz, View.ld_unit_zero (S := S128x128) hz, View.ld_unit_zero (S := S1x128) hz]
  rw [pay7]
  obtain ⟨e0, e1, e2, e3, e4, e5, e6, e7⟩ := idx_facts t
  funext j
  show linArr (R := 5000) (K := 128) (C := 128) (iblk7 V c 0 t) (iblk7 V c 1 t) (iblk7 V c 2 t) j
      = linArr (R := 50000) (K := 128) (C := 128) (V c main_v103) (V c main_v106) (V c main_v110) (((cfg7.win 3).blk t).view.emb j)
  have hx : ∀ k : Fin 128, (iblk7 V c 0 t : Mat 5000 128) (ix2 (j 0) k)
      = (V c main_v103 : Mat 50000 128) (ix2 ((((cfg7.win 3).blk t).view.emb j) 0) k) := fun k => by
    show V c main_v103 (((cfg7.win 0).blk t).view.emb (ix2 (j 0) k)) = _
    refine congrArg (V c main_v103) (funext fun a => Fin.ext ?_)
    match a with
    | ⟨0, _⟩ => show win7_0.index t (0 : Fin 2) * 5000 + 1 * (j 0).val = win7_3.index t (0 : Fin 2) * 5000 + 1 * (j 0).val; omega
    | ⟨1, _⟩ => show win7_0.index t (1 : Fin 2) * 128 + 1 * k.val = k.val; omega
  have hw : ∀ k : Fin 128, (iblk7 V c 1 t : Mat 128 128) (ix2 k (j 1))
      = (V c main_v106 : Mat 128 128) (ix2 k ((((cfg7.win 3).blk t).view.emb j) 1)) := fun k => by
    show V c main_v106 (((cfg7.win 1).blk t).view.emb (ix2 k (j 1))) = _
    refine congrArg (V c main_v106) (funext fun a => Fin.ext ?_)
    match a with
    | ⟨0, _⟩ => show win7_1.index t (0 : Fin 2) * 128 + 1 * k.val = k.val; omega
    | ⟨1, _⟩ => show win7_1.index t (1 : Fin 2) * 128 + 1 * (j 1).val = win7_3.index t (1 : Fin 2) * 128 + 1 * (j 1).val; omega
  have hb : (iblk7 V c 2 t : Mat 1 128) (ix2 (0 : Fin 1) (j 1))
      = (V c main_v110 : Mat 1 128) (ix2 (0 : Fin 1) ((((cfg7.win 3).blk t).view.emb j) 1)) := by
    show V c main_v110 (((cfg7.win 2).blk t).view.emb (ix2 (0 : Fin 1) (j 1))) = _
    refine congrArg (V c main_v110) (funext fun a => Fin.ext ?_)
    match a with
    | ⟨0, _⟩ => show win7_2.index t (0 : Fin 2) * 1 + 1 * 0 = 0; omega
    | ⟨1, _⟩ => show win7_2.index t (1 : Fin 2) * 128 + 1 * (j 1).val = win7_3.index t (1 : Fin 2) * 128 + 1 * (j 1).val; omega
  unfold linArr
  rw [hb]
  exact congrArg (· + _) (Finset.sum_congr rfl fun k _ => by rw [hx k, hw k])

/-- An index of the result array is in point `t`'s block iff each coordinate is in the block's range on its axis. -/
theorem mem_blk (t : Fin cfg7.N) (i : S50000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v111).slice (win7_3.rect t)).set ↔ _
  rw [View.set_slice_whole, Rect.mem_set_unit]
  exact Iff.rfl

/-- The ten blocks tile the 50000 rows: row `r` is in the block of the point whose block index is `r / 5000`. -/
theorem cover (i : S50000x128.Idx) :
    ∃ t : Fin cfg7.N, (cfg7.win 3).flush t = true ∧ i ∈ ((cfg7.win 3).blk t).view.set := by
  have hi0 : (i 0).val < 50000 := (i 0).isLt
  have hi1 : (i 1).val < 128 := (i 1).isLt
  obtain ⟨t, ht⟩ := idx_onto ⟨(i 0).val / 5000, by omega⟩
  have q0 : win7_3.index t (0 : Fin 2) = (i 0).val / 5000 := congrFun ht 0
  have q1 : win7_3.index t (1 : Fin 2) = 0 := congrFun ht 1
  refine ⟨t, flush7_3 t, ?_⟩
  rw [mem_blk]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 128 ≤ (i 1).val ∧ (i 1).val < win7_3.index t (1 : Fin 2) * 128 + 128; omega

/-- The result array when the region is left: the layer of the arrays the region found. -/
theorem final (c : Dev nD) : (dat7 V c).arrAt 3 cfg7.N = G V c :=
  (dat7 V c).arrAt_eq_of_cover 3 (G V c) (fun t _ => flushed_eq V c t) cover

end Cert.KernelIdeal.Region7

end
-- ==== Proof.Chain.lean ====
import proofs.«113334_j17016660427423_1_alg».proof.Proof.Gen.KernelIdeal.Frame
import proofs.«113334_j17016660427423_1_alg».proof.Proof.Gen.ReferenceIdeal.Read
import proofs.«113334_j17016660427423_1_alg».proof.Proof.Keep
import proofs.«113334_j17016660427423_1_alg».proof.Proof.Bridge
import proofs.«113334_j17016660427423_1_alg».proof.Proof.Fc
import proofs.«113334_j17016660427423_1_alg».proof.Proof.Region0
import proofs.«113334_j17016660427423_1_alg».proof.Proof.Region1
import proofs.«113334_j17016660427423_1_alg».proof.Proof.Region2
import proofs.«113334_j17016660427423_1_alg».proof.Proof.Region3
import proofs.«113334_j17016660427423_1_alg».proof.Proof.Region4
import proofs.«113334_j17016660427423_1_alg».proof.Proof.Region5
import proofs.«113334_j17016660427423_1_alg».proof.Proof.Region6
import proofs.«113334_j17016660427423_1_alg».proof.Proof.Region7

/-!
# The fold through the segments, computed: the kernel's result is the reference's

Segment by segment, the buffers the next segment reads are identified with the reference's stages, as functions
of the thirteen argument arrays.

* The first host stretch computes the two index rows, the edge weights and the self-loop weights exactly as the
  reference does (the same operations of the same argument), and a bias row of zeros.
* A linear region leaves the linear layer of what it read; with a zero bias row that is the reference's matrix
  product.
* The host stretch before a combining region gathers rows of the linear part, scales them by the edge weights
  and scatter-adds them: the same operations as the reference's, of equal operands.
* A combining region leaves the combining layer of what it read: the reference's sum of aggregate, scaled
  linear part and bias, followed by the maximum with zero.
* The two dense layers and the last stretch (the per-graph mean and the softmax over the two classes) follow,
  the last stretch applied to the two kept columns being the reference's operations of an equal operand.
-/

set_option maxRecDepth 16384

noncomputable section

namespace Cert.KernelIdeal.Chain

open Cert.KernelIdeal Cert.KernelIdeal.Gen Cert.Layers
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first host stretch -/

theorem w1_v1 (c : Dev nD) : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  after_results_simp
  rfl

theorem w1_v3 (c : Dev nD) : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  after_results_simp
  rfl

theorem w1_v30 (c : Dev nD) : W1 m ρ c (Proc.devRef .tc main_v30) = Cert.ReferenceIdeal.Read.val_main_v30 (F := Ideal) (m ((c.tc : Thread nD τ).loc main_arg1)) := by
  show StableHlo.after hostOps0 (W0 m ρ c) (Proc.devRef .tc main_v30) = _
  after_results_simp
  rfl

theorem w1_v32 (c : Dev nD) : W1 m ρ c (Proc.devRef .tc main_v32) = Cert.ReferenceIdeal.Read.val_main_v32 (F := Ideal) (m ((c.tc : Thread nD τ).loc main_arg1)) := by
  show StableHlo.after hostOps0 (W0 m ρ c) (Proc.devRef .tc main_v32) = _
  after_results_simp
  rfl

/-- The bias row this stretch makes is zero. -/
theorem w1_v34 (c : Dev nD) (i : S1x128.Idx) : (W1 m ρ c (Proc.devRef .tc main_v34) : Mat 1 128) i = (0 : EReal) := by
  show (StableHlo.after hostOps0 (W0 m ρ c) (Proc.devRef .tc main_v34) : Mat 1 128) i = (0 : EReal)
  after_results_simp
  exact Ideal.ofBits_zero_f32

/-! ## Graph layer 1 -/

/-- Region 0 leaves the product of the node features by the first weight matrix. -/
theorem w2_v35 (c : Dev nD) : W2 m ρ c (Proc.devRef .tc main_v35) = Cert.ReferenceIdeal.Read.val_main_v33 (F := Ideal) (m ((c.tc : Thread nD τ).loc main_arg0)) (m ((c.tc : Thread nD τ).loc main_arg3)) := by
  rw [show W2 m ρ c (Proc.devRef .tc main_v35) = (dat0 (V1 m ρ) c).arrAt 3 cfg0.N from W2_arr m ρ c 3, Region0.final]
  show linArr (W1 m ρ c (Proc.devRef .tc main_arg0)) (W1 m ρ c (Proc.devRef .tc main_arg3)) (W1 m ρ c (Proc.devRef .tc main_v34)) = _
  rw [Keep.arg_1 m ρ c main_arg0 (by decide), Keep.arg_1 m ρ c main_arg3 (by decide)]
  exact Cert.Bridge.lin_zero _ _ _ (w1_v34 m ρ c)

theorem w3_v53 (c : Dev nD) : W3 m ρ c (Proc.devRef .tc main_v53) = Cert.ReferenceIdeal.Read.val_main_v51 (F := Ideal) (m ((c.tc : Thread nD τ).loc main_arg0)) (m ((c.tc : Thread nD τ).loc main_arg1)) (m ((c.tc : Thread nD τ).loc main_arg3)) := by
  show StableHlo.after hostOps1 (W2 m ρ c) (Proc.devRef .tc main_v53) = _
  after_results_simp
  rw [Keep.first_2 m ρ c main_v1 (by decide), Keep.first_2 m ρ c main_v3 (by decide), Keep.first_2 m ρ c main_v30 (by decide),
    w1_v1, w1_v3, w1_v30, w2_v35]
  rfl

theorem w3_v54 (c : Dev nD) : W3 m ρ c (Proc.devRef .tc main_v54) = shapeCast S1x128 (m ((c.tc : Thread nD τ).loc main_arg4)) shapeCasts_S128_S1x128 := by
  show StableHlo.after hostOps1 (W2 m ρ c) (Proc.devRef .tc main_v54) = _
  after_results_simp
  rw [Keep.arg_2 m ρ c main_arg4 (by decide)]
  rfl

theorem w3_v35 (c : Dev nD) : W3 m ρ c (Proc.devRef .tc main_v35) = Cert.ReferenceIdeal.Read.val_main_v33 (F := Ideal) (m ((c.tc : Thread nD τ).loc main_arg0)) (m ((c.tc : Thread nD τ).loc main_arg3)) :=
  (Keep.host1 (W2 m ρ c) main_v35 (by decide)).trans (w2_v35 m ρ c)

theorem w3_v32 (c : Dev nD) : W3 m ρ c (Proc.devRef .tc main_v32) = Cert.ReferenceIdeal.Read.val_main_v32 (F := Ideal) (m ((c.tc : Thread nD τ).loc main_arg1)) :=
  (Keep.first_3 m ρ c main_v32 (by decide)).trans (w1_v32 m ρ c)

/-- Combining region 1 leaves the reference's layer 1. -/
theorem w4_v55 (c : Dev nD) : W4 m ρ c (Proc.devRef .tc main_v55) = Cert.ReferenceIdeal.Read.val_main_v58 (F := Ideal) (m ((c.tc : Thread nD τ).loc main_arg0)) (m ((c.tc : Thread nD τ).loc main_arg1)) (m ((c.tc : Thread nD τ).loc main_arg3)) (m ((c.tc : Thread nD τ).loc main_arg4)) := by
  rw [show W4 m ρ c (Proc.devRef .tc main_v55) = (dat1 (V3 m ρ) c).arrAt 4 cfg1.N from W4_arr m ρ c 4, Region1.final]
  show combArr (W3 m ρ c (Proc.devRef .tc main_v53)) (W3 m ρ c (Proc.devRef .tc main_v35)) (W3 m ρ c (Proc.devRef .tc main_v32)) (W3 m ρ c (Proc.devRef .tc main_v54)) = _
  rw [w3_v53, w3_v35, w3_v32, w3_v54]
  exact Cert.Bridge.comb1 (m ((c.tc : Thread nD τ).loc main_arg0)) (m ((c.tc : Thread nD τ).loc main_arg1)) (m ((c.tc : Thread nD τ).loc main_arg3)) (m ((c.tc : Thread nD τ).loc main_arg4)) shapeCasts_S128_S1x128

/-! ## Graph layer 2 -/

theorem w5_v55 (c : Dev nD) : W5 m ρ c (Proc.devRef .tc main_v55) = Cert.ReferenceIdeal.Read.val_main_v58 (F := Ideal) (m ((c.tc : Thread nD τ).loc main_arg0)) (m ((c.tc : Thread nD τ).loc main_arg1)) (m ((c.tc : Thread nD τ).loc main_arg3)) (m ((c.tc : Thread nD τ).loc main_arg4)) :=
  (Keep.host2 (W4 m ρ c) main_v55 (by decide)).trans (w4_v55 m ρ c)

/-- The bias row this stretch makes is zero. -/
theorem w5_v57 (c : Dev nD) (i : S1x128.Idx) : (W5 m ρ c (Proc.devRef .tc main_v57) : Mat 1 128) i = (0 : EReal) := by
  show (StableHlo.after hostOps2 (W4 m ρ c) (Proc.devRef .tc main_v57) : Mat 1 128) i = (0 : EReal)
  after_results_simp
  exact Ideal.ofBits_zero_f32

/-- Region 2 leaves the product of layer 1's result by the second weight matrix. -/
theorem w6_v58 (c : Dev nD) : W6 m ρ c (Proc.devRef .tc main_v58) = Cert.ReferenceIdeal.Read.val_main_v59 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  rw [show W6 m ρ c (Proc.devRef .tc main_v58) = (dat2 (V5 m ρ) c).arrAt 3 cfg2.N from W6_arr m ρ c 3, Region2.final]
  show linArr (W5 m ρ c (Proc.devRef .tc main_v55)) (W5 m ρ c (Proc.devRef .tc main_arg5)) (W5 m ρ c (Proc.devRef .tc main_v57)) = _
  rw [w5_v55, Keep.arg_5 m ρ c main_arg5 (by decide)]
  exact Cert.Bridge.lin_zero _ _ _ (w5_v57 m ρ c)

theorem w7_v76 (c : Dev nD) : W7 m ρ c (Proc.devRef .tc main_v76) = Cert.ReferenceIdeal.Read.val_main_v77 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  show StableHlo.after hostOps3 (W6 m ρ c) (Proc.devRef .tc main_v76) = _
  after_results_simp
  rw [Keep.first_6 m ρ c main_v1 (by decide), Keep.first_6 m ρ c main_v3 (by decide), Keep.first_6 m ρ c main_v30 (by decide),
    w1_v1, w1_v3, w1_v30, w6_v58]
  rfl

theorem w7_v77 (c : Dev nD) : W7 m ρ c (Proc.devRef .tc main_v77) = shapeCast S1x128 (m ((c.tc : Thread nD τ).loc main_arg6)) shapeCasts_S128_S1x128 := by
  show StableHlo.after hostOps3 (W6 m ρ c) (Proc.devRef .tc main_v77) = _
  after_results_simp
  rw [Keep.arg_6 m ρ c main_arg6 (by decide)]
  rfl

theorem w7_v58 (c : Dev nD) : W7 m ρ c (Proc.devRef .tc main_v58) = Cert.ReferenceIdeal.Read.val_main_v59 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) :=
  (Keep.host3 (W6 m ρ c) main_v58 (by decide)).trans (w6_v58 m ρ c)

theorem w7_v32 (c : Dev nD) : W7 m ρ c (Proc.devRef .tc main_v32) = Cert.ReferenceIdeal.Read.val_main_v32 (F := Ideal) (m ((c.tc : Thread nD τ).loc main_arg1)) :=
  (Keep.first_7 m ρ c main_v32 (by decide)).trans (w1_v32 m ρ c)

/-- Combining region 3 leaves the reference's layer 2. -/
theorem w8_v78 (c : Dev nD) : W8 m ρ c (Proc.devRef .tc main_v78) = Cert.ReferenceIdeal.Read.val_main_v84 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  rw [show W8 m ρ c (Proc.devRef .tc main_v78) = (dat3 (V7 m ρ) c).arrAt 4 cfg3.N from W8_arr m ρ c 4, Region3.final]
  show combArr (W7 m ρ c (Proc.devRef .tc main_v76)) (W7 m ρ c (Proc.devRef .tc main_v58)) (W7 m ρ c (Proc.devRef .tc main_v32)) (W7 m ρ c (Proc.devRef .tc main_v77)) = _
  rw [w7_v76, w7_v58, w7_v32, w7_v77]
  exact Cert.Bridge.comb2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) shapeCasts_S128_S1x128

/-! ## Graph layer 3 -/

theorem w9_v78 (c : Dev nD) : W9 m ρ c (Proc.devRef .tc main_v78) = Cert.ReferenceIdeal.Read.val_main_v84 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  (Keep.host4 (W8 m ρ c) main_v78 (by decide)).trans (w8_v78 m ρ c)

/-- The bias row this stretch makes is zero. -/
theorem w9_v80 (c : Dev nD) (i : S1x128.Idx) : (W9 m ρ c (Proc.devRef .tc main_v80) : Mat 1 128) i = (0 : EReal) := by
  show (StableHlo.after hostOps4 (W8 m ρ c) (Proc.devRef .tc main_v80) : Mat 1 128) i = (0 : EReal)
  after_results_simp
  exact Ideal.ofBits_zero_f32

/-- Region 4 leaves the product of layer 2's result by the third weight matrix. -/
theorem w10_v81 (c : Dev nD) : W10 m ρ c (Proc.devRef .tc main_v81) = Cert.ReferenceIdeal.Read.val_main_v85 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [show W10 m ρ c (Proc.devRef .tc main_v81) = (dat4 (V9 m ρ) c).arrAt 3 cfg4.N from W10_arr m ρ c 3, Region4.final]
  show linArr (W9 m ρ c (Proc.devRef .tc main_v78)) (W9 m ρ c (Proc.devRef .tc main_arg7)) (W9 m ρ c (Proc.devRef .tc main_v80)) = _
  rw [w9_v78, Keep.arg_9 m ρ c main_arg7 (by decide)]
  exact Cert.Bridge.lin_zero _ _ _ (w9_v80 m ρ c)

theorem w11_v99 (c : Dev nD) : W11 m ρ c (Proc.devRef .tc main_v99) = Cert.ReferenceIdeal.Read.val_main_v103 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps5 (W10 m ρ c) (Proc.devRef .tc main_v99) = _
  after_results_simp
  rw [Keep.first_10 m ρ c main_v1 (by decide), Keep.first_10 m ρ c main_v3 (by decide), Keep.first_10 m ρ c main_v30 (by decide),
    w1_v1, w1_v3, w1_v30, w10_v81]
  rfl

theorem w11_v100 (c : Dev nD) : W11 m ρ c (Proc.devRef .tc main_v100) = shapeCast S1x128 (m ((c.tc : Thread nD τ).loc main_arg8)) shapeCasts_S128_S1x128 := by
  show StableHlo.after hostOps5 (W10 m ρ c) (Proc.devRef .tc main_v100) = _
  after_results_simp
  rw [Keep.arg_10 m ρ c main_arg8 (by decide)]
  rfl

theorem w11_v81 (c : Dev nD) : W11 m ρ c (Proc.devRef .tc main_v81) = Cert.ReferenceIdeal.Read.val_main_v85 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (Keep.host5 (W10 m ρ c) main_v81 (by decide)).trans (w10_v81 m ρ c)

theorem w11_v32 (c : Dev nD) : W11 m ρ c (Proc.devRef .tc main_v32) = Cert.ReferenceIdeal.Read.val_main_v32 (F := Ideal) (m ((c.tc : Thread nD τ).loc main_arg1)) :=
  (Keep.first_11 m ρ c main_v32 (by decide)).trans (w1_v32 m ρ c)

/-- Combining region 5 leaves the reference's layer 3. -/
theorem w12_v101 (c : Dev nD) : W12 m ρ c (Proc.devRef .tc main_v101) = Cert.ReferenceIdeal.Read.val_main_v110 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [show W12 m ρ c (Proc.devRef .tc main_v101) = (dat5 (V11 m ρ) c).arrAt 4 cfg5.N from W12_arr m ρ c 4, Region5.final]
  show combArr (W11 m ρ c (Proc.devRef .tc main_v99)) (W11 m ρ c (Proc.devRef .tc main_v81)) (W11 m ρ c (Proc.devRef .tc main_v32)) (W11 m ρ c (Proc.devRef .tc main_v100)) = _
  rw [w11_v99, w11_v81, w11_v32, w11_v100]
  exact Cert.Bridge.comb3 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) shapeCasts_S128_S1x128

/-! ## The two dense layers -/

theorem w13_v101 (c : Dev nD) : W13 m ρ c (Proc.devRef .tc main_v101) = Cert.ReferenceIdeal.Read.val_main_v110 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Keep.host6 (W12 m ρ c) main_v101 (by decide)).trans (w12_v101 m ρ c)

theorem w13_v102 (c : Dev nD) : W13 m ρ c (Proc.devRef .tc main_v102) = shapeCast S1x128 (m ((c.tc : Thread nD τ).loc main_arg10)) shapeCasts_S128_S1x128 := by
  show StableHlo.after hostOps6 (W12 m ρ c) (Proc.devRef .tc main_v102) = _
  after_results_simp
  rw [Keep.arg_12 m ρ c main_arg10 (by decide)]
  rfl

/-- Region 6 leaves the reference's first dense layer. -/
theorem w14_v103 (c : Dev nD) : W14 m ρ c (Proc.devRef .tc main_v103) = Cert.ReferenceIdeal.Read.val_main_v115 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [show W14 m ρ c (Proc.devRef .tc main_v103) = (dat6 (V13 m ρ) c).arrAt 3 cfg6.N from W14_arr m ρ c 3, Region6.final]
  show reluArr (linArr (W13 m ρ c (Proc.devRef .tc main_v101)) (W13 m ρ c (Proc.devRef .tc main_arg9)) (W13 m ρ c (Proc.devRef .tc main_v102))) = _
  rw [w13_v101, Keep.arg_13 m ρ c main_arg9 (by decide), w13_v102]
  exact Fc.fc1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) shapeCasts_S128_S1x128

theorem w15_v103 (c : Dev nD) : W15 m ρ c (Proc.devRef .tc main_v103) = Cert.ReferenceIdeal.Read.val_main_v115 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (Keep.host7 (W14 m ρ c) main_v103 (by decide)).trans (w14_v103 m ρ c)

theorem w15_v106 (c : Dev nD) : W15 m ρ c (Proc.devRef .tc main_v106)
    = Host.scatter scatter_S128x128_S1_S128x2_01_n_1_0 (fun _ b => b)
        (broadcastInDim S128x128 ![] bcast_S_S128x128 (constant (F := Ideal) S_ .f32 0x00000000#32))
        (broadcastInDim S1 ![] bcast_S_S1 (constantI S_ 32 0#32)) (m ((c.tc : Thread nD τ).loc main_arg11)) := by
  show StableHlo.after hostOps7 (W14 m ρ c) (Proc.devRef .tc main_v106) = _
  after_results_simp
  rw [Keep.arg_14 m ρ c main_arg11 (by decide)]

theorem w15_v110 (c : Dev nD) : W15 m ρ c (Proc.devRef .tc main_v110)
    = shapeCast S1x128 (Host.scatter scatter_S128_S1_S2_0_n_0_0 (fun _ b => b)
        (broadcastInDim S128 ![] bcast_S_S128 (constant (F := Ideal) S_ .f32 0x00000000#32))
        (broadcastInDim S1 ![] bcast_S_S1 (constantI S_ 32 0#32)) (m ((c.tc : Thread nD τ).loc main_arg12))) shapeCasts_S128_S1x128 := by
  show StableHlo.after hostOps7 (W14 m ρ c) (Proc.devRef .tc main_v110) = _
  after_results_simp
  rw [Keep.arg_14 m ρ c main_arg12 (by decide)]
  rfl

/-- Region 7 leaves the linear layer of the first dense layer's result with the padded weights and bias. -/
theorem w16_v111 (c : Dev nD) : W16 m ρ c (Proc.devRef .tc main_v111)
    = linArr (Cert.ReferenceIdeal.Read.val_main_v115 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
        (Host.scatter scatter_S128x128_S1_S128x2_01_n_1_0 (fun _ b => b)
          (broadcastInDim S128x128 ![] bcast_S_S128x128 (constant (F := Ideal) S_ .f32 0x00000000#32))
          (broadcastInDim S1 ![] bcast_S_S1 (constantI S_ 32 0#32)) (m ((c.tc : Thread nD τ).loc main_arg11)))
        (shapeCast S1x128 (Host.scatter scatter_S128_S1_S2_0_n_0_0 (fun _ b => b)
          (broadcastInDim S128 ![] bcast_S_S128 (constant (F := Ideal) S_ .f32 0x00000000#32))
          (broadcastInDim S1 ![] bcast_S_S1 (constantI S_ 32 0#32)) (m ((c.tc : Thread nD τ).loc main_arg12))) shapeCasts_S128_S1x128) := by
  rw [show W16 m ρ c (Proc.devRef .tc main_v111) = (dat7 (V15 m ρ) c).arrAt 3 cfg7.N from W16_arr m ρ c 3, Region7.final]
  show linArr (W15 m ρ c (Proc.devRef .tc main_v103)) (W15 m ρ c (Proc.devRef .tc main_v106)) (W15 m ρ c (Proc.devRef .tc main_v110)) = _
  rw [w15_v103, w15_v106, w15_v110]

/-! ## The last stretch: the per-graph mean and the softmax -/

/-- The kernel's result is the reference's result as a function of the argument arrays. -/
theorem result_eq (c : Dev nD) : W17 m ρ c (Proc.devRef .tc main_v135) = Cert.ReferenceIdeal.Read.val_main_v142 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  show StableHlo.after hostOps8 (W16 m ρ c) (Proc.devRef .tc main_v135) = _
  after_results_simp
  rw [Keep.arg_16 m ρ c main_arg2 (by decide), w16_v111,
    Fc.fc2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      (broadcastInDim S128x128 ![] bcast_S_S128x128 (constant (F := Ideal) S_ .f32 0x00000000#32))
      (broadcastInDim S1 ![] bcast_S_S1 (constantI S_ 32 0#32)) (fun _ => rfl)
      (broadcastInDim S128 ![] bcast_S_S128 (constant (F := Ideal) S_ .f32 0x00000000#32))
      (broadcastInDim S1 ![] bcast_S_S1 (constantI S_ 32 0#32)) (fun _ => rfl) shapeCasts_S128_S1x128]
  rfl

end Cert.KernelIdeal.Chain

end
-- ==== Proof.lean ====
/-
  The claim: the word-level kernel, its idealization and the idealized reference each run to the end with their
  argument arrays unchanged, and at the ideal instance the idealized kernel and the reference end with equal
  results.

  The program is a three-layer graph convolution followed by two dense layers, a per-graph mean and a softmax
  over two classes.  The kernel computes the five matrix products and the three "aggregate + self term + bias,
  then positive part" steps in eight pipelined regions over blocks of 5000 rows, and everything else — the
  degrees, the edge weights, the gathers and scatter-adds along the edges, the pooling and the softmax — on the
  host, by the same operations as the reference.  On the extended reals a region's result array is a function of
  whole arrays (Layers, Region0 … Region7); those functions are the reference's stages (Bridge, Fc); the buffers
  a segment leaves alone keep their contents (Keep); so the fold of buffer contents through the seventeen
  segments ends, at the result buffer, at the reference's result as a function of the arguments (Chain).
  No law that needs finite inputs is used: adding zero and the maximum with zero are total on the extended
  reals, sums are reindexed but never regrouped, and the padded columns of the last weight matrix are never read.
-/
import proofs.«113334_j17016660427423_1_alg».proof.Defs
import proofs.«113334_j17016660427423_1_alg».proof.Proof.Gen.Kernel
import proofs.«113334_j17016660427423_1_alg».proof.Proof.Gen.Kernel.Skeleton
import proofs.«113334_j17016660427423_1_alg».proof.Proof.Gen.Kernel.Launch
import proofs.«113334_j17016660427423_1_alg».proof.Proof.Gen.Kernel.Points
import proofs.«113334_j17016660427423_1_alg».proof.Proof.Gen.Kernel.Frame
import proofs.«113334_j17016660427423_1_alg».proof.Proof.Gen.KernelIdeal
import proofs.«113334_j17016660427423_1_alg».proof.Proof.Gen.KernelIdeal.Skeleton
import proofs.«113334_j17016660427423_1_alg».proof.Proof.Gen.KernelIdeal.Launch
import proofs.«113334_j17016660427423_1_alg».proof.Proof.Gen.KernelIdeal.Points
import proofs.«113334_j17016660427423_1_alg».proof.Proof.Gen.KernelIdeal.Frame
import proofs.«113334_j17016660427423_1_alg».proof.Proof.Gen.ReferenceIdeal
import proofs.«113334_j17016660427423_1_alg».proof.Proof.Gen.Pre_finite_inputs
import proofs.«113334_j17016660427423_1_alg».proof.Proof.Gen.ReferenceIdeal.Run
import proofs.«113334_j17016660427423_1_alg».proof.Proof.Gen.ReferenceIdeal.Read
import proofs.«113334_j17016660427423_1_alg».proof.Proof.KernelRun
import proofs.«113334_j17016660427423_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel's run ends with the result buffer at the last contents of the fold through its segments, the
    reference's with its result at its composed term; both are the reference's result function of the arguments,
    and the arguments agree. -/
theorem algebraic : Cert.algebraic_KernelIdeal_ReferenceIdeal := by
  intro m ρ m' ρ' _ hagree
  refine ⟨fun c => Cert.KernelIdeal.Gen.W17 m ρ c (Proc.devRef .tc Cert.KernelIdeal.main_v135),
    Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v142_eq]
  obtain ⟨h0, h1, h2, h3, h4, h5, h6, h7, h8, h9, h10, h11, h12⟩ := hagree c
  rw [h0, h1, h2, h3, h4, h5, h6, h7, h8, h9, h10, h11, h12]
  exact (Cert.KernelIdeal.Chain.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
